-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x512 : Shape := ⟨2, ![8192, 512]⟩
abbrev S512x1024 : Shape := ⟨2, ![512, 1024]⟩
abbrev S512x512 : Shape := ⟨2, ![512, 512]⟩
abbrev S512 : Shape := ⟨1, ![512]⟩
abbrev S256x512 : Shape := ⟨2, ![256, 512]⟩
abbrev S1024x256 : Shape := ⟨2, ![1024, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn_part6 {F : FTy → Type} [FloatOps F] (main_arg21 : FVec F S256x512 .f32) (main_arg22 : FVec F S1024x256 .f32) (main_v98 : IVec S_ 1) (main_v101 : IVec S512x1024 1) (main_c_39 : IVec S_ 1) : IVec S_ 1 :=
  let main_v102 : IVec S_ 1 := (fun x v => Host.reduce IntOp.andi x v reducesTo_S512x1024_S_d0_1 h_S_) main_v101 main_c_39
  let main_v103 : IVec S_ 1 := andi main_v98 main_v102
  let main_v104 : FVec F S256x512 .f32 := Host.absf main_arg21
  let main_cst_40 : FVec F S_ .f32 := constant S_ .f32 0x7F800000#32
  let main_v105 : FVec F S256x512 .f32 := broadcastInDim S256x512 ![] bcast_S_S256x512 main_cst_40
  let main_v106 : IVec S256x512 1 := cmpf .olt main_v104 main_v105
  let main_c_41 : IVec S_ 1 := constantI S_ 1 1#1
  let main_v107 : IVec S_ 1 := (fun x v => Host.reduce IntOp.andi x v reducesTo_S256x512_S_d0_1 h_S_) main_v106 main_c_41
  let main_v108 : IVec S_ 1 := andi main_v103 main_v107
  let main_v109 : FVec F S1024x256 .f32 := Host.absf main_arg22
  let main_cst_42 : FVec F S_ .f32 := constant S_ .f32 0x7F800000#32
  let main_v110 : FVec F S1024x256 .f32 := broadcastInDim S1024x256 ![] bcast_S_S1024x256 main_cst_42
  let main_v111 : IVec S1024x256 1 := cmpf .olt main_v109 main_v110
  let main_c_43 : IVec S_ 1 := constantI S_ 1 1#1
  let main_v112 : IVec S_ 1 := (fun x v => Host.reduce IntOp.andi x v reducesTo_S1024x256_S_d0_1 h_S_) main_v111 main_c_43
  let main_v113 : IVec S_ 1 := andi main_v108 main_v112
  main_v113

def fn_part5 {F : FTy → Type} [FloatOps F] (main_arg18 : FVec F S512x512 .f32) (main_arg19 : FVec F S512x512 .f32) (main_arg20 : FVec F S512x1024 .f32) (main_arg21 : FVec F S256x512 .f32) (main_arg22 : FVec F S1024x256 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512x512 .f32 := Host.absf main_arg18
  let main_cst_34 : FVec F S_ .f32 := constant S_ .f32 0x7F800000#32
  let main_v90 : FVec F S512x512 .f32 := broadcastInDim S512x512 ![] bcast_S_S512x512 main_cst_34
  let main_v91 : IVec S512x512 1 := cmpf .olt main_v89 main_v90
  let main_c_35 : IVec S_ 1 := constantI S_ 1 1#1
  let main_v92 : IVec S_ 1 := (fun x v => Host.reduce IntOp.andi x v reducesTo_S512x512_S_d0_1 h_S_) main_v91 main_c_35
  let main_v93 : IVec S_ 1 := andi main_v88 main_v92
  let main_v94 : FVec F S512x512 .f32 := Host.absf main_arg19
  let main_cst_36 : FVec F S_ .f32 := constant S_ .f32 0x7F800000#32
  let main_v95 : FVec F S512x512 .f32 := broadcastInDim S512x512 ![] bcast_S_S512x512 main_cst_36
  let main_v96 : IVec S512x512 1 := cmpf .olt main_v94 main_v95
  let main_c_37 : IVec S_ 1 := constantI S_ 1 1#1
  let main_v97 : IVec S_ 1 := (fun x v => Host.reduce IntOp.andi x v reducesTo_S512x512_S_d0_1 h_S_) main_v96 main_c_37
  let main_v98 : IVec S_ 1 := andi main_v93 main_v97
  let main_v99 : FVec F S512x1024 .f32 := Host.absf main_arg20
  let main_cst_38 : FVec F S_ .f32 := constant S_ .f32 0x7F800000#32
  let main_v100 : FVec F S512x1024 .f32 := broadcastInDim S512x1024 ![] bcast_S_S512x1024 main_cst_38
  let main_v101 : IVec S512x1024 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S512x512 .f32) (main_arg15 : FVec F S512x512 .f32) (main_arg16 : FVec F S512x512 .f32) (main_arg17 : FVec F S512 .f32) (main_arg18 : FVec F S512x512 .f32) (main_arg19 : FVec F S512x512 .f32) (main_arg20 : FVec F S512x1024 .f32) (main_arg21 : FVec F S256x512 .f32) (main_arg22 : FVec F S1024x256 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512x512 .f32 := Host.absf main_arg16
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S512x512 .f32) (main_arg12 : FVec F S512x512 .f32) (main_arg13 : FVec F S512x512 .f32) (main_arg14 : FVec F S512x512 .f32) (main_arg15 : FVec F S512x512 .f32) (main_arg16 : FVec F S512x512 .f32) (main_arg17 : FVec F S512 .f32) (main_arg18 : FVec F S512x512 .f32) (main_arg19 : FVec F S512x512 .f32) (main_arg20 : FVec F S512x1024 .f32) (main_arg21 : FVec F S256x512 .f32) (main_arg22 : FVec F S1024x256 .f32) (main_v48 : IVec S_ 1) (main_v49 : FVec F S512x1024 .f32) (main_v50 : FVec F S512x1024 .f32) : IVec S_ 1 :=
  let main_v51 : IVec S512x1024 1 := cmpf .olt main_v49 main_v50
  let main_c_19 : IVec S_ 1 := constantI S_ 1 1#1
  let main_v52 : IVec S_ 1 := (fun x v => Host.reduce IntOp.andi x v reducesTo_S512x1024_S_d0_1 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S8192x512 .f32) (main_arg8 : FVec F S8192x512 .f32) (main_arg9 : FVec F S512x1024 .f32) (main_arg10 : FVec F S512x1024 .f32) (main_arg11 : FVec F S512x512 .f32) (main_arg12 : FVec F S512x512 .f32) (main_arg13 : FVec F S512x512 .f32) (main_arg14 : FVec F S512x512 .f32) (main_arg15 : FVec F S512x512 .f32) (main_arg16 : FVec F S512x512 .f32) (main_arg17 : FVec F S512 .f32) (main_arg18 : FVec F S512x512 .f32) (main_arg19 : FVec F S512x512 .f32) (main_arg20 : FVec F S512x1024 .f32) (main_arg21 : FVec F S256x512 .f32) (main_arg22 : FVec F S1024x256 .f32) (main_v33 : IVec S_ 1) : IVec S_ 1 :=
  let main_v34 : FVec F S8192x512 .f32 := Host.absf main_arg7
  let main_cst_12 : FVec F S_ .f32 := constant S_ .f32 0x7F800000#32
  let main_v35 : FVec F S8192x512 .f32 := broadcastInDim S8192x512 ![] bcast_S_S8192x512 main_cst_12
  let main_v36 : IVec S8192x512 1 := cmpf .olt main_v34 main_v35
  let main_c_13 : IVec S_ 1 := constantI S_ 1 1#1
  let main_v37 : IVec S_ 1 := (fun x v => Host.reduce IntOp.andi x v reducesTo_S8192x512_S_d0_1 h_S_) main_v36 main_c_13
  let main_v38 : IVec S_ 1 := andi main_v33 main_v37
  let main_v39 : FVec F S8192x512 .f32 := Host.absf main_arg8
  let main_cst_14 : FVec F S_ .f32 := constant S_ .f32 0x7F800000#32
  let main_v40 : FVec F S8192x512 .f32 := broadcastInDim S8192x512 ![] bcast_S_S8192x512 main_cst_14
  let main_v41 : IVec S8192x512 1 := cmpf .olt main_v39 main_v40
  let main_c_15 : IVec S_ 1 := constantI S_ 1 1#1
  let main_v42 : IVec S_ 1 := (fun x v => Host.reduce IntOp.andi x v reducesTo_S8192x512_S_d0_1 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S512x1024 .f32 := Host.absf main_arg10
  let main_cst_18 : FVec F S_ .f32 := constant S_ .f32 0x7F800000#32
  let main_v50 : FVec F S512x1024 .f32 := broadcastInDim S512x1024 ![] bcast_S_S512x1024 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S8192x512 .f32) (main_arg5 : FVec F S8192x512 .f32) (main_arg6 : FVec F S8192x512 .f32) (main_arg7 : FVec F S8192x512 .f32) (main_arg8 : FVec F S8192x512 .f32) (main_arg9 : FVec F S512x1024 .f32) (main_arg10 : FVec F S512x1024 .f32) (main_arg11 : FVec F S512x512 .f32) (main_arg12 : FVec F S512x512 .f32) (main_arg13 : FVec F S512x512 .f32) (main_arg14 : FVec F S512x512 .f32) (main_arg15 : FVec F S512x512 .f32) (main_arg16 : FVec F S512x512 .f32) (main_arg17 : FVec F S512 .f32) (main_arg18 : FVec F S512x512 .f32) (main_arg19 : FVec F S512x512 .f32) (main_arg20 : FVec F S512x1024 .f32) (main_arg21 : FVec F S256x512 .f32) (main_arg22 : FVec F S1024x256 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  let main_v29 : FVec F S8192x512 .f32 := Host.absf main_arg6
  let main_cst_10 : FVec F S_ .f32 := constant S_ .f32 0x7F800000#32
  let main_v30 : FVec F S8192x512 .f32 := broadcastInDim S8192x512 ![] bcast_S_S8192x512 main_cst_10
  let main_v31 : IVec S8192x512 1 := cmpf .olt main_v29 main_v30
  let main_c_11 : IVec S_ 1 := constantI S_ 1 1#1
  let main_v32 : IVec S_ 1 := (fun x v => Host.reduce IntOp.andi x v reducesTo_S8192x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S8192x1024 .f32) (main_arg1 : FVec F S8192x512 .f32) (main_arg2 : FVec F S8192x512 .f32) (main_arg3 : FVec F S8192x512 .f32) (main_arg4 : FVec F S8192x512 .f32) (main_arg5 : FVec F S8192x512 .f32) (main_arg6 : FVec F S8192x512 .f32) (main_arg7 : FVec F S8192x512 .f32) (main_arg8 : FVec F S8192x512 .f32) (main_arg9 : FVec F S512x1024 .f32) (main_arg10 : FVec F S512x1024 .f32) (main_arg11 : FVec F S512x512 .f32) (main_arg12 : FVec F S512x512 .f32) (main_arg13 : FVec F S512x512 .f32) (main_arg14 : FVec F S512x512 .f32) (main_arg15 : FVec F S512x512 .f32) (main_arg16 : FVec F S512x512 .f32) (main_arg17 : FVec F S512 .f32) (main_arg18 : FVec F S512x512 .f32) (main_arg19 : FVec F S512x512 .f32) (main_arg20 : FVec F S512x1024 .f32) (main_arg21 : FVec F S256x512 .f32) (main_arg22 : FVec F S1024x256 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S8192x1024 : Shape := ⟨2, ![8192, 1024]⟩
abbrev S8192x512 : Shape := ⟨2, ![8192, 512]⟩
abbrev S512x1024 : Shape := ⟨2, ![512, 1024]⟩
abbrev S512x512 : Shape := ⟨2, ![512, 512]⟩
abbrev S512 : Shape := ⟨1, ![512]⟩
abbrev S256x512 : Shape := ⟨2, ![256, 512]⟩
abbrev S1024x256 : Shape := ⟨2, ![1024, 256]⟩
abbrev S_ : Shape := ⟨0, ![]⟩
abbrev S1024x512 : Shape := ⟨2, ![1024, 512]⟩
abbrev S1x512 : Shape := ⟨2, ![1, 512]⟩
abbrev S512x256 : Shape := ⟨2, ![512, 256]⟩
abbrev S256x1024 : Shape := ⟨2, ![256, 1024]⟩
abbrev S8192x6656 : Shape := ⟨2, ![8192, 6656]⟩
abbrev S256x6656 : Shape := ⟨2, ![256, 6656]⟩
abbrev S256x256 : Shape := ⟨2, ![256, 256]⟩

abbrev nBuf : Space → Nat
  | .hbm => 70
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S512x1024, .f32⟩
  | .hbm, ⟨10, _⟩ => ⟨S512x1024, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512, .f32⟩
  | .hbm, ⟨18, _⟩ => ⟨S512x512, .f32⟩
  | .hbm, ⟨19, _⟩ => ⟨S512x512, .f32⟩
  | .hbm, ⟨20, _⟩ => ⟨S512x1024, .f32⟩
  | .hbm, ⟨21, _⟩ => ⟨S256x512, .f32⟩
  | .hbm, ⟨22, _⟩ => ⟨S1024x256, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S_, .f32⟩
  | .hbm, ⟨30, _⟩ => ⟨S512, .f32⟩
  | .hbm, ⟨31, _⟩ => ⟨S512, .f32⟩
  | .hbm, ⟨32, _⟩ => ⟨S512x512, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S512x512, .f32⟩
  | .hbm, ⟨41, _⟩ => ⟨S512x512, .f32⟩
  | .hbm, ⟨42, _⟩ => ⟨S1024x512, .f32⟩
  | .hbm, ⟨43, _⟩ => ⟨S1024x512, .bf16⟩
  | .hbm, ⟨44, _⟩ => ⟨S1024x512, .f32⟩
  | .hbm, ⟨45, _⟩ => ⟨S1024x512, .bf16⟩
  | .hbm, ⟨46, _⟩ => ⟨S512x512, .f32⟩
  | .hbm, ⟨47, _⟩ => ⟨S512x512, .bf16⟩
  | .hbm, ⟨48, _⟩ => ⟨S512x512, .f32⟩
  | .hbm, ⟨49, _⟩ => ⟨S512x512, .bf16⟩
  | .hbm, ⟨50, _⟩ => ⟨S512x512, .f32⟩
  | .hbm, ⟨51, _⟩ => ⟨S512x512, .bf16⟩
  | .hbm, ⟨52, _⟩ => ⟨S512x512, .f32⟩
  | .hbm, ⟨53, _⟩ => ⟨S512x512, .bf16⟩
  | .hbm, ⟨54, _⟩ => ⟨S512x512, .f32⟩
  | .hbm, ⟨55, _⟩ => ⟨S512x512, .bf16⟩
  | .hbm, ⟨56, _⟩ => ⟨S512x512, .f32⟩
  | .hbm, ⟨57, _⟩ => ⟨S512x512, .bf16⟩
  | .hbm, ⟨58, _⟩ => ⟨S1x512, .f32⟩
  | .hbm, ⟨59, _⟩ => ⟨S512x512, .f32⟩
  | .hbm, ⟨60, _⟩ => ⟨S512x512, .bf16⟩
  | .hbm, ⟨61, _⟩ => ⟨S512x512, .f32⟩
  | .hbm, ⟨62, _⟩ => ⟨S512x512, .bf16⟩
  | .hbm, ⟨63, _⟩ => ⟨S1024x512, .f32⟩
  | .hbm, ⟨64, _⟩ => ⟨S1024x512, .bf16⟩
  | .hbm, ⟨65, _⟩ => ⟨S512x256, .f32⟩
  | .hbm, ⟨66, _⟩ => ⟨S512x256, .bf16⟩
  | .hbm, ⟨67, _⟩ => ⟨S256x1024, .f32⟩
  | .hbm, ⟨68, _⟩ => ⟨S256x1024, .bf16⟩
  | .hbm, ⟨69, _⟩ => ⟨S8192x6656, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S1024x512, .bf16⟩
  | .local _ .vmem, ⟨19, _⟩ => ⟨S1024x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S1x512, .f32⟩
  | .local _ .vmem, ⟨27, _⟩ => ⟨S512x512, .bf16⟩
  | .local _ .vmem, ⟨28, _⟩ => ⟨S512x512, .bf16⟩
  | .local _ .vmem, ⟨29, _⟩ => ⟨S1024x512, .bf16⟩
  | .local _ .vmem, ⟨30, _⟩ => ⟨S512x256, .bf16⟩
  | .local _ .vmem, ⟨31, _⟩ => ⟨S256x1024, .bf16⟩
  | .local _ .vmem, ⟨32, _⟩ => ⟨S256x6656, .f32⟩
  | .local _ .vmem, ⟨33, _⟩ => ⟨S256x6656, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_cst : Ref sig .tc := ⟨.hbm, 23, rfl⟩
abbrev main_call0_v0 : Ref sig .tc := ⟨.hbm, 24, rfl⟩
abbrev main_v0 : Ref sig .tc := ⟨.hbm, 25, rfl⟩
abbrev main_call1_cst : Ref sig .tc := ⟨.hbm, 26, rfl⟩
abbrev main_call1_v0 : Ref sig .tc := ⟨.hbm, 27, rfl⟩
abbrev main_v1 : Ref sig .tc := ⟨.hbm, 28, rfl⟩
abbrev main_call2_cst : Ref sig .tc := ⟨.hbm, 29, rfl⟩
abbrev main_call2_v0 : Ref sig .tc := ⟨.hbm, 30, rfl⟩
abbrev main_v2 : Ref sig .tc := ⟨.hbm, 31, rfl⟩
abbrev main_call3_v0 : Ref sig .tc := ⟨.hbm, 32, rfl⟩
abbrev main_call3_cst : Ref sig .tc := ⟨.hbm, 33, rfl⟩
abbrev main_call3_v1 : Ref sig .tc := ⟨.hbm, 34, rfl⟩
abbrev main_v3 : Ref sig .tc := ⟨.hbm, 35, rfl⟩
abbrev main_cst : Ref sig .tc := ⟨.hbm, 36, rfl⟩
abbrev main_v4 : Ref sig .tc := ⟨.hbm, 37, rfl⟩
abbrev main_cst_0 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg23_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem23_0 : DmaSem sig := 32
abbrev cc0_sem23_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x512 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S256x6656 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  bcast_S_S512x512 : S_.BroadcastsInDim S512x512 (![] : Fin 0 → Fin S512x512.rank)
  bcast_S_S512 : S_.BroadcastsInDim S512 (![] : Fin 0 → Fin S512.rank)
  reducesTo_S512x512_S_d0_1 : S512x512.ReducesTo [0, 1] S_
  h_S_ : 0 < S_.numel
  transposes_S512x1024_S1024x512_1_0 : S512x1024.Transposes [1, 0] S1024x512
  bitsLt_bf16_f32 : FTy.bits .bf16 < FTy.bits .f32
  transposes_S512x512_S512x512_1_0 : S512x512.Transposes [1, 0] S512x512
  shapeCasts_S512_S1x512 : S512.ShapeCasts S1x512
  transposes_S256x512_S512x256_1_0 : S256x512.Transposes [1, 0] S512x256
  transposes_S1024x256_S256x1024_1_0 : S1024x256.Transposes [1, 0] S256x1024
  inb_S256x512_S256x512_0_0 : ∀ a, (![0, 0] : Fin 2 → Nat) a + S256x512.size a ≤ S256x512.size a
  h_S256x512 : 0 < S256x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x6656_S256x512_0_1536 : ∀ a, (![0, 1536] : Fin 2 → Nat) a + S256x512.size a ≤ S256x6656.size a
  inb_S256x1024_S256x1024_0_0 : ∀ a, (![0, 0] : Fin 2 → Nat) a + S256x1024.size a ≤ S256x1024.size a
  h_S256x1024 : 0 < S256x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S256x6656_S256x512_0_3072 : ∀ a, (![0, 3072] : Fin 2 → Nat) a + S256x512.size a ≤ S256x6656.size a
  inb_S256x6656_S256x512_0_2048 : ∀ a, (![0, 2048] : Fin 2 → Nat) a + S256x512.size a ≤ S256x6656.size a
  inb_S256x6656_S256x512_0_2560 : ∀ a, (![0, 2560] : Fin 2 → Nat) a + S256x512.size a ≤ S256x6656.size a
  inb_S256x6656_S256x512_0_0 : ∀ a, (![0, 0] : Fin 2 → Nat) a + S256x512.size a ≤ S256x6656.size a
  inb_S256x6656_S256x512_0_3584 : ∀ a, (![0, 3584] : Fin 2 → Nat) a + S256x512.size a ≤ S256x6656.size a
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S256x1024_S256x1024 : S256x1024.ShapeCasts S256x1024
  inb_S256x6656_S256x1024_0_4096 : ∀ a, (![0, 4096] : Fin 2 → Nat) a + S256x1024.size a ≤ S256x6656.size a
  inb_S256x6656_S256x1024_0_5120 : ∀ a, (![0, 5120] : Fin 2 → Nat) a + S256x1024.size a ≤ S256x6656.size a
  inb_S256x6656_S256x512_0_6144 : ∀ a, (![0, 6144] : Fin 2 → Nat) a + S256x512.size a ≤ S256x6656.size a
  inb_S256x6656_S256x512_0_512 : ∀ a, (![0, 512] : Fin 2 → Nat) a + S256x512.size a ≤ S256x6656.size a
  inb_S256x6656_S256x512_0_1024 : ∀ a, (![0, 1024] : Fin 2 → Nat) a + S256x512.size a ≤ S256x6656.size a
  dot_S256x512_S512x512_S256x512_1_0_0_1_n_n_wf : DotDims.WF S256x512 S512x512 S256x512 [1] [0] [0] [1] [] []
  dot_S256x1024_S1024x512_S256x512_1_0_0_1_n_n_wf : DotDims.WF S256x1024 S1024x512 S256x512 [1] [0] [0] [1] [] []
  dot_S256x512_S512x256_S256x256_1_0_0_1_n_n_wf : DotDims.WF S256x512 S512x256 S256x256 [1] [0] [0] [1] [] []
  dot_S256x256_S256x1024_S256x1024_1_0_0_1_n_n_wf : DotDims.WF S256x256 S256x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S8192x512.size a
  hwx0_1 : ∀ i : grid0.Coords, EltTy.bits .f32 = 32 ∨ (Rect.block (s := S8192x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S8192x512.size a
  hwx0_2 : ∀ i : grid0.Coords, EltTy.bits .f32 = 32 ∨ (Rect.block (s := S8192x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S8192x512.size a
  hwx0_3 : ∀ i : grid0.Coords, EltTy.bits .f32 = 32 ∨ (Rect.block (s := S8192x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S8192x512.size a
  hwx0_4 : ∀ i : grid0.Coords, EltTy.bits .f32 = 32 ∨ (Rect.block (s := S8192x512) S256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S8192x512.size a
  hwx0_5 : ∀ i : grid0.Coords, EltTy.bits .f32 = 32 ∨ (Rect.block (s := S8192x512) S256x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S8192x512.size a
  hwx0_6 : ∀ i : grid0.Coords, EltTy.bits .f32 = 32 ∨ (Rect.block (s := S8192x512) S256x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S8192x512.size a
  hwx0_7 : ∀ i : grid0.Coords, EltTy.bits .f32 = 32 ∨ (Rect.block (s := S8192x512) S256x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S8192x512.size a
  hwx0_8 : ∀ i : grid0.Coords, EltTy.bits .f32 = 32 ∨ (Rect.block (s := S8192x512) S256x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S1024x512.size a
  hwx0_9 : ∀ i : grid0.Coords, EltTy.bits .bf16 = 32 ∨ (Rect.block (s := S1024x512) S1024x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S1024x512.size a
  hwx0_10 : ∀ i : grid0.Coords, EltTy.bits .bf16 = 32 ∨ (Rect.block (s := S1024x512) S1024x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .bf16 = 32 ∨ (Rect.block (s := S512x512) S512x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .bf16 = 32 ∨ (Rect.block (s := S512x512) S512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S512x512.size a
  hwx0_13 : ∀ i : grid0.Coords, EltTy.bits .bf16 = 32 ∨ (Rect.block (s := S512x512) S512x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S512x512.size a
  hwx0_14 : ∀ i : grid0.Coords, EltTy.bits .bf16 = 32 ∨ (Rect.block (s := S512x512) S512x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S512x512.size a
  hwx0_15 : ∀ i : grid0.Coords, EltTy.bits .bf16 = 32 ∨ (Rect.block (s := S512x512) S512x512.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S512x512.size a
  hwx0_16 : ∀ i : grid0.Coords, EltTy.bits .bf16 = 32 ∨ (Rect.block (s := S512x512) S512x512.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x512.size a ≤ S1x512.size a
  hwx0_17 : ∀ i : grid0.Coords, EltTy.bits .f32 = 32 ∨ (Rect.block (s := S1x512) S1x512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x512.size a ≤ S512x512.size a
  hwx0_18 : ∀ i : grid0.Coords, EltTy.bits .bf16 = 32 ∨ (Rect.block (s := S512x512) S512x512.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512x512.size a ≤ S512x512.size a
  hwx0_19 : ∀ i : grid0.Coords, EltTy.bits .bf16 = 32 ∨ (Rect.block (s := S512x512) S512x512.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1024x512.size a ≤ S1024x512.size a
  hwx0_20 : ∀ i : grid0.Coords, EltTy.bits .bf16 = 32 ∨ (Rect.block (s := S1024x512) S1024x512.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S512x256.size a ≤ S512x256.size a
  hwx0_21 : ∀ i : grid0.Coords, EltTy.bits .bf16 = 32 ∨ (Rect.block (s := S512x256) S512x256.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256x1024.size a ≤ S256x1024.size a
  hwx0_22 : ∀ i : grid0.Coords, EltTy.bits .bf16 = 32 ∨ (Rect.block (s := S256x1024) S256x1024.size (cc0_transform_22 i) (hinb0_22 i)).WholeWords (EltTy.packing .bf16)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S256x6656.size a ≤ S8192x6656.size a
  hwx0_23 : ∀ i : grid0.Coords, EltTy.bits .f32 = 32 ∨ (Rect.block (s := S8192x6656) S256x6656.size (cc0_transform_23 i) (hinb0_23 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1024x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1024x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S512x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19) S512x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v21) S512x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v23) S512x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v24) S1x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v26) S512x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v28) S512x512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v30) S1024x512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v32) S512x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v34) S256x1024.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v35) S256x6656.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x512 : Shape := ⟨2, ![8192, 512]⟩
abbrev S512x1024 : Shape := ⟨2, ![512, 1024]⟩
abbrev S512x512 : Shape := ⟨2, ![512, 512]⟩
abbrev S512 : Shape := ⟨1, ![512]⟩
abbrev S256x512 : Shape := ⟨2, ![256, 512]⟩
abbrev S1024x256 : Shape := ⟨2, ![1024, 256]⟩
abbrev S_ : Shape := ⟨0, ![]⟩
abbrev S1x512 : Shape := ⟨2, ![1, 512]⟩
abbrev S1024x512 : Shape := ⟨2, ![1024, 512]⟩
abbrev S512x256 : Shape := ⟨2, ![512, 256]⟩
abbrev S8192x256 : Shape := ⟨2, ![8192, 256]⟩
abbrev S256x1024 : Shape := ⟨2, ![256, 1024]⟩
abbrev S8192x6656 : Shape := ⟨2, ![8192, 6656]⟩

abbrev nBuf : Space → Nat
  | .hbm => 168
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S512x1024, .f32⟩
  | 10 => ⟨S512x1024, .f32⟩
  | 11 => ⟨S512x512, .f32⟩
  | 12 => ⟨S512x512, .f32⟩
  | 13 => ⟨S512x512, .f32⟩
  | 14 => ⟨S512x512, .f32⟩
  | 15 => ⟨S512x512, .f32⟩
  | 16 => ⟨S512x512, .f32⟩
  | 17 => ⟨S512, .f32⟩
  | 18 => ⟨S512x512, .f32⟩
  | 19 => ⟨S512x512, .f32⟩
  | 20 => ⟨S512x1024, .f32⟩
  | 21 => ⟨S256x512, .f32⟩
  | 22 => ⟨S1024x256, .f32⟩
  | 23 => ⟨S_, .f32⟩
  | 24 => ⟨S512x512, .f32⟩
  | 25 => ⟨S512x512, .f32⟩
  | 26 => ⟨S_, .f32⟩
  | 27 => ⟨S512x512, .f32⟩
  | 28 => ⟨S512x512, .f32⟩
  | 29 => ⟨S_, .f32⟩
  | 30 => ⟨S512, .f32⟩
  | 31 => ⟨S512, .f32⟩
  | 32 => ⟨S512x512, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S512x512, .f32⟩
  | 41 => ⟨S512x512, .f32⟩
  | 42 => ⟨S512x512, .f32⟩
  | 43 => ⟨S8192x512, .f32⟩
  | 44 => ⟨S_, .f32⟩
  | 45 => ⟨S8192x512, .f32⟩
  | 46 => ⟨S8192x512, .f32⟩
  | 47 => ⟨S512x512, .f32⟩
  | 48 => ⟨S8192x512, .f32⟩
  | 49 => ⟨S1x512, .f32⟩
  | 50 => ⟨S8192x512, .f32⟩
  | 51 => ⟨S8192x512, .f32⟩
  | 52 => ⟨S_, .f32⟩
  | 53 => ⟨S8192x512, .f32⟩
  | 54 => ⟨S8192x512, .f32⟩
  | 55 => ⟨S_, .f32⟩
  | 56 => ⟨S8192x512, .f32⟩
  | 57 => ⟨S8192x512, .f32⟩
  | 58 => ⟨S_, .f32⟩
  | 59 => ⟨S8192x512, .f32⟩
  | 60 => ⟨S8192x512, .f32⟩
  | 61 => ⟨S8192x512, .f32⟩
  | 62 => ⟨S512x512, .f32⟩
  | 63 => ⟨S8192x512, .f32⟩
  | 64 => ⟨S_, .f32⟩
  | 65 => ⟨S8192x512, .f32⟩
  | 66 => ⟨S8192x512, .f32⟩
  | 67 => ⟨S8192x512, .f32⟩
  | 68 => ⟨S_, .f32⟩
  | 69 => ⟨S8192x512, .f32⟩
  | 70 => ⟨S8192x512, .f32⟩
  | 71 => ⟨S8192x512, .f32⟩
  | 72 => ⟨S1024x512, .f32⟩
  | 73 => ⟨S8192x512, .f32⟩
  | 74 => ⟨S8192x512, .f32⟩
  | 75 => ⟨S8192x512, .f32⟩
  | 76 => ⟨S8192x512, .f32⟩
  | 77 => ⟨S8192x512, .f32⟩
  | 78 => ⟨S_, .f32⟩
  | 79 => ⟨S8192x512, .f32⟩
  | 80 => ⟨S8192x512, .f32⟩
  | 81 => ⟨S8192x512, .f32⟩
  | 82 => ⟨S_, .f32⟩
  | 83 => ⟨S8192x512, .f32⟩
  | 84 => ⟨S8192x512, .f32⟩
  | 85 => ⟨S8192x512, .f32⟩
  | 86 => ⟨S1024x512, .f32⟩
  | 87 => ⟨S8192x512, .f32⟩
  | 88 => ⟨S_, .f32⟩
  | 89 => ⟨S8192x512, .f32⟩
  | 90 => ⟨S8192x512, .f32⟩
  | 91 => ⟨S1024x512, .f32⟩
  | 92 => ⟨S8192x512, .f32⟩
  | 93 => ⟨S_, .f32⟩
  | 94 => ⟨S8192x512, .f32⟩
  | 95 => ⟨S8192x512, .f32⟩
  | 96 => ⟨S_, .f32⟩
  | 97 => ⟨S8192x512, .f32⟩
  | 98 => ⟨S8192x512, .f32⟩
  | 99 => ⟨S8192x512, .f32⟩
  | 100 => ⟨S8192x512, .f32⟩
  | 101 => ⟨S_, .f32⟩
  | 102 => ⟨S8192x512, .f32⟩
  | 103 => ⟨S8192x512, .f32⟩
  | 104 => ⟨S_, .f32⟩
  | 105 => ⟨S8192x512, .f32⟩
  | 106 => ⟨S8192x512, .f32⟩
  | 107 => ⟨S_, .f32⟩
  | 108 => ⟨S8192x512, .f32⟩
  | 109 => ⟨S8192x512, .f32⟩
  | 110 => ⟨S8192x512, .f32⟩
  | 111 => ⟨S8192x512, .f32⟩
  | 112 => ⟨S8192x512, .f32⟩
  | 113 => ⟨S_, .f32⟩
  | 114 => ⟨S8192x512, .f32⟩
  | 115 => ⟨S8192x512, .f32⟩
  | 116 => ⟨S_, .f32⟩
  | 117 => ⟨S8192x512, .f32⟩
  | 118 => ⟨S8192x512, .f32⟩
  | 119 => ⟨S512x512, .f32⟩
  | 120 => ⟨S8192x512, .f32⟩
  | 121 => ⟨S8192x512, .f32⟩
  | 122 => ⟨S8192x512, .f32⟩
  | 123 => ⟨S_, .f32⟩
  | 124 => ⟨S8192x512, .f32⟩
  | 125 => ⟨S8192x512, .f32⟩
  | 126 => ⟨S8192x512, .f32⟩
  | 127 => ⟨S_, .f32⟩
  | _ => ⟨S8192x1024, .f32⟩

abbrev hbmTy0_1 (i : Nat) : BufTy := match i % 128 with
  | 0 => ⟨S8192x512, .f32⟩
  | 1 => ⟨S8192x512, .f32⟩
  | 2 => ⟨S512x256, .f32⟩
  | 3 => ⟨S8192x256, .f32⟩
  | 4 => ⟨S256x1024, .f32⟩
  | 5 => ⟨S8192x1024, .f32⟩
  | 6 => ⟨S_, .f32⟩
  | 7 => ⟨S8192x1024, .f32⟩
  | 8 => ⟨S8192x1024, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S8192x512, .f32⟩
  | 18 => ⟨S8192x512, .f32⟩
  | 19 => ⟨S512x512, .f32⟩
  | 20 => ⟨S8192x512, .f32⟩
  | 21 => ⟨S512x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S512x512, .f32⟩
  | 28 => ⟨S8192x512, .f32⟩
  | 29 => ⟨S512x512, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S8192x1024, .f32⟩
  | 36 => ⟨S8192x1024, .f32⟩
  | 37 => ⟨S8192x512, .f32⟩
  | 38 => ⟨S8192x512, .f32⟩
  | 39 => ⟨S8192x6656, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_cst : Ref sig .tc := ⟨.hbm, 23, rfl⟩
abbrev main_call0_v0 : Ref sig .tc := ⟨.hbm, 24, rfl⟩
abbrev main_v0 : Ref sig .tc := ⟨.hbm, 25, rfl⟩
abbrev main_call1_cst : Ref sig .tc := ⟨.hbm, 26, rfl⟩
abbrev main_call1_v0 : Ref sig .tc := ⟨.hbm, 27, rfl⟩
abbrev main_v1 : Ref sig .tc := ⟨.hbm, 28, rfl⟩
abbrev main_call2_cst : Ref sig .tc := ⟨.hbm, 29, rfl⟩
abbrev main_call2_v0 : Ref sig .tc := ⟨.hbm, 30, rfl⟩
abbrev main_v2 : Ref sig .tc := ⟨.hbm, 31, rfl⟩
abbrev main_call3_v0 : Ref sig .tc := ⟨.hbm, 32, rfl⟩
abbrev main_call3_cst : Ref sig .tc := ⟨.hbm, 33, rfl⟩
abbrev main_call3_v1 : Ref sig .tc := ⟨.hbm, 34, rfl⟩
abbrev main_v3 : Ref sig .tc := ⟨.hbm, 35, rfl⟩
abbrev main_cst : Ref sig .tc := ⟨.hbm, 36, rfl⟩
abbrev main_v4 : Ref sig .tc := ⟨.hbm, 37, rfl⟩
abbrev main_cst_0 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_call4_cst : Ref sig .tc := ⟨.hbm, 44, rfl⟩
abbrev main_call4_v0 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_call5_cst : Ref sig .tc := ⟨.hbm, 52, rfl⟩
abbrev main_call5_v0 : Ref sig .tc := ⟨.hbm, 53, rfl⟩
abbrev main_v16 : Ref sig .tc := ⟨.hbm, 54, rfl⟩
abbrev main_cst_1 : Ref sig .tc := ⟨.hbm, 55, rfl⟩
abbrev main_v17 : Ref sig .tc := ⟨.hbm, 56, rfl⟩
abbrev main_v18 : Ref sig .tc := ⟨.hbm, 57, rfl⟩
abbrev main_cst_2 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_3 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_4 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_5 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_6 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_call6_cst : Ref sig .tc := ⟨.hbm, 88, rfl⟩
abbrev main_call6_v0 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_call7_cst : Ref sig .tc := ⟨.hbm, 93, rfl⟩
abbrev main_call7_v0 : Ref sig .tc := ⟨.hbm, 94, rfl⟩
abbrev main_v47 : Ref sig .tc := ⟨.hbm, 95, rfl⟩
abbrev main_cst_7 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_cst_8 : Ref sig .tc := ⟨.hbm, 101, rfl⟩
abbrev main_v52 : Ref sig .tc := ⟨.hbm, 102, rfl⟩
abbrev main_v53 : Ref sig .tc := ⟨.hbm, 103, rfl⟩
abbrev main_cst_9 : Ref sig .tc := ⟨.hbm, 104, rfl⟩
abbrev main_v54 : Ref sig .tc := ⟨.hbm, 105, rfl⟩
abbrev main_v55 : Ref sig .tc := ⟨.hbm, 106, rfl⟩
abbrev main_cst_10 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_call8_cst : Ref sig .tc := ⟨.hbm, 113, rfl⟩
abbrev main_call8_v0 : Ref sig .tc := ⟨.hbm, 114, rfl⟩
abbrev main_v61 : Ref sig .tc := ⟨.hbm, 115, rfl⟩
abbrev main_cst_11 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_call9_cst : Ref sig .tc := ⟨.hbm, 123, rfl⟩
abbrev main_call9_v0 : Ref sig .tc := ⟨.hbm, 124, rfl⟩
abbrev main_v68 : Ref sig .tc := ⟨.hbm, 125, rfl⟩
abbrev main_v69 : Ref sig .tc := ⟨.hbm, 126, rfl⟩
abbrev main_call10_cst : Ref sig .tc := ⟨.hbm, 127, rfl⟩
abbrev main_call10_v0 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_cst_12 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_cst_13 : Ref sig .tc := ⟨.hbm, 139, rfl⟩
abbrev main_v79 : Ref sig .tc := ⟨.hbm, 140, rfl⟩
abbrev main_v80 : Ref sig .tc := ⟨.hbm, 141, rfl⟩
abbrev main_cst_14 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_call11_cst : Ref sig .tc := ⟨.hbm, 152, rfl⟩
abbrev main_call11_v0 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_call12_cst : Ref sig .tc := ⟨.hbm, 160, rfl⟩
abbrev main_call12_v0 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S_S512 : S_.BroadcastsInDim S512 (![] : Fin 0 → Fin S512.rank)
  reducesTo_S512x512_S_d0_1 : S512x512.ReducesTo [0, 1] S_
  h_S_ : 0 < S_.numel
  transposes_S512x512_S512x512_1_0 : S512x512.Transposes [1, 0] S512x512
  bcast_S_S8192x512 : S_.BroadcastsInDim S8192x512 (![] : Fin 0 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S512x1024_S1024x512_1_0 : S512x1024.Transposes [1, 0] S1024x512
  transposes_S256x512_S512x256_1_0 : S256x512.Transposes [1, 0] S512x256
  transposes_S1024x256_S256x1024_1_0 : S1024x256.Transposes [1, 0] S256x1024
  bcast_S_S8192x1024 : S_.BroadcastsInDim S8192x1024 (![] : Fin 0 → Fin S8192x1024.rank)
  concatenates_S8192x512_S8192x512_S8192x512_S8192x512_S8192x512_S8192x512_S8192x512_S8192x512_S8192x1024_S8192x1024_S8192x512_S8192x6656_d1 : Shape.Concatenates [S8192x512, S8192x512, S8192x512, S8192x512, S8192x512, S8192x512, S8192x512, S8192x512, S8192x1024, S8192x1024, S8192x512] S8192x6656 1
  dot_S8192x512_S512x512_S8192x512_1_0_0_1_n_n_wf : DotDims.WF S8192x512 S512x512 S8192x512 [1] [0] [0] [1] [] []
  dot_S8192x1024_S1024x512_S8192x512_1_0_0_1_n_n_wf : DotDims.WF S8192x1024 S1024x512 S8192x512 [1] [0] [0] [1] [] []
  dot_S8192x512_S512x256_S8192x256_1_0_0_1_n_n_wf : DotDims.WF S8192x512 S512x256 S8192x256 [1] [0] [0] [1] [] []
  dot_S8192x256_S256x1024_S8192x1024_1_0_0_1_n_n_wf : DotDims.WF S8192x256 S256x1024 S8192x1024 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf

class Facts : Prop extends Facts₀ where

variable [Facts]
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.Consts.lean ====
/-
  The one float constant of this certificate whose value is used: the pattern 0x3F800000 denotes the real number 1.

  The kernel's logistic is, at the exact extended reals, 1 / (1 + e^(-x)) with the literal number one, while the reference
  spells the same expression with the constant 1.0 of its program text; the two meet once the pattern is read. Every other
  constant (0.8, 0.2, 0.4, -50, 0.1, 0.01, 0.5, 2.0 and the zero of a rectifier) appears as the same pattern on both
  sides and is never evaluated.
-/
import Idealize.ShloMosaic.PureOps.Ideal

noncomputable section

namespace Cert.Consts

open Idealize.ShloMosaic

/-- The pattern of 1.0 denotes 1. -/
theorem ofBits_one : Ideal.ofBits .f32 0x3F800000#32 = 1 := by
  simp [Ideal.ofBits, Ideal.ieee, -EReal.coe_mul]; norm_num

end Cert.Consts

end
-- ==== Proof.RowLinks.lean ====
/-
  Row by row, the kernel's block computation is the reference's computation.

  The kernel handles the batch in 32 blocks of 256 rows; every quantity it computes for row p of block t depends only on
  row 256·t + p of the nine row-indexed inputs and on the weight matrices, which are the same for all blocks. This file
  fixes a block t, assumes that the kernel's nine row operands are rows 256·t … 256·t + 255 of the corresponding arrays
  and that its fourteen weight operands are the (transposed, rectified, rescaled) matrices the reference forms, and shows
  stage by stage that each vector the kernel computes, read at (p, j), is the reference's array of the same name read at
  (256·t + p, j):

    the prior mean  relu(h2 · Wᵀ),   sigma_p = 0.8·relu(h · Wᵀ + b) + 0.2·sigma_p_prev,   the gain  sigma_p · Wᵀ,
    theta_ff = tanh²(0.4·u + e^(−50|u|) · (I · Wᵀ)),   theta = 0.1·theta_prev + theta_ff / (1 + gain),
    the posterior mean and the logistic of 0.01 times the posterior spread,
    the inhibition 0.8·s + theta · Wᵀ,   z = relu(relu(tanh(mean + eps·(logistic − 0.5))) − inhibition),
    the reconstruction logistic((z · W₁ᵀ) · W₂ᵀ − 2), the two squared errors, and the two recurrent updates.

  Every step is pointwise except the matrix products, and a product's entry (p, j) is a sum over the contracted index of
  row p of the left operand against column j of the right one: the sums on the two sides have the same terms, in the same
  order. The kernel's logistic is 1 / (1 + e^(−x)) by definition at the exact extended reals, which is how the reference
  spells it. No law of arithmetic beyond that is used, so nothing here needs the inputs to be finite.
-/
import proofs.«151506_j27513560498312_2_alg».proof.Proof.Gen.KernelIdeal.Skeleton
import proofs.«151506_j27513560498312_2_alg».proof.Proof.Gen.ReferenceIdeal.Read
import proofs.«151506_j27513560498312_2_alg».proof.Proof.LibPlainMatmul
import proofs.«151506_j27513560498312_2_alg».proof.Proof.LibPlainDotGeneral
import proofs.«151506_j27513560498312_2_alg».proof.Proof.Consts
import Idealize.ShloMosaic.Lib.ValueLayout
import Idealize.ShloMosaic.Lib.Pipeline.Value

noncomputable section

namespace Cert.Bridge

open Idealize.ShloMosaic Idealize.ShloMosaic.ValueIdx
open Cert.KernelIdeal.Gen Cert.ReferenceIdeal.Read

/-! ## Pointwise operations read at an index -/

theorem exp_apply {s : Shape} {φ : FTy} (a : FVec Ideal s φ) (i : s.Idx) : Idealize.ShloMosaic.exp a i = Ideal.exp (a i) := rfl
theorem tanh_apply {s : Shape} {φ : FTy} (a : FVec Ideal s φ) (i : s.Idx) : Idealize.ShloMosaic.tanh a i = Ideal.tanh (a i) := rfl
theorem absf_apply {s : Shape} {φ : FTy} (a : FVec Ideal s φ) (i : s.Idx) : Idealize.ShloMosaic.absf a i = max (a i) (-(a i)) := rfl
theorem logistic_apply {s : Shape} {φ : FTy} (a : FVec Ideal s φ) (i : s.Idx) :
    Idealize.ShloMosaic.logistic a i = Ideal.div 1 (1 + Ideal.exp (-(a i))) := rfl

/-! ## The matrix products of the two programs, entry by entry -/

theorem mm_512_512 {φ₁ φ₂ : FTy} (A : FVec Ideal Cert.KernelIdeal.S256x512 φ₁) (B : FVec Ideal Cert.KernelIdeal.S512x512 φ₂) (a : Fin 256) (b : Fin 512) :
    matmul Cert.KernelIdeal.dot_S256x512_S512x512_S256x512_1_0_0_1_n_n none A B (constant (F := Ideal) Cert.KernelIdeal.S256x512 .f32 0x00000000#32) (ix2 a b)
      = ∑ c : Fin 512, A (ix2 a c) * B (ix2 c b) :=
  matmul_plain_zero_apply _ none A B a b

theorem mm_1024_512 {φ₁ φ₂ : FTy} (A : FVec Ideal Cert.KernelIdeal.S256x1024 φ₁) (B : FVec Ideal Cert.KernelIdeal.S1024x512 φ₂) (a : Fin 256) (b : Fin 512) :
    matmul Cert.KernelIdeal.dot_S256x1024_S1024x512_S256x512_1_0_0_1_n_n none A B (constant (F := Ideal) Cert.KernelIdeal.S256x512 .f32 0x00000000#32) (ix2 a b)
      = ∑ c : Fin 1024, A (ix2 a c) * B (ix2 c b) :=
  matmul_plain_zero_apply _ none A B a b

theorem mm_512_256 {φ₁ φ₂ : FTy} (A : FVec Ideal Cert.KernelIdeal.S256x512 φ₁) (B : FVec Ideal Cert.KernelIdeal.S512x256 φ₂) (a : Fin 256) (b : Fin 256) :
    matmul Cert.KernelIdeal.dot_S256x512_S512x256_S256x256_1_0_0_1_n_n none A B (constant (F := Ideal) Cert.KernelIdeal.S256x256 .f32 0x00000000#32) (ix2 a b)
      = ∑ c : Fin 512, A (ix2 a c) * B (ix2 c b) :=
  matmul_plain_zero_apply _ none A B a b

theorem mm_256_1024 {φ₁ φ₂ : FTy} (A : FVec Ideal Cert.KernelIdeal.S256x256 φ₁) (B : FVec Ideal Cert.KernelIdeal.S256x1024 φ₂) (a : Fin 256) (b : Fin 1024) :
    matmul Cert.KernelIdeal.dot_S256x256_S256x1024_S256x1024_1_0_0_1_n_n none A B (constant (F := Ideal) Cert.KernelIdeal.S256x1024 .f32 0x00000000#32) (ix2 a b)
      = ∑ c : Fin 256, A (ix2 a c) * B (ix2 c b) :=
  matmul_plain_zero_apply _ none A B a b

theorem dg_512_512 {φ₁ φ₂ : FTy} (A : FVec Ideal Cert.ReferenceIdeal.S8192x512 φ₁) (B : FVec Ideal Cert.ReferenceIdeal.S512x512 φ₂) (a : Fin 8192) (b : Fin 512) :
    Host.dotGeneral Cert.ReferenceIdeal.dot_S8192x512_S512x512_S8192x512_1_0_0_1_n_n none A B (ix2 a b) = ∑ c : Fin 512, A (ix2 a c) * B (ix2 c b) :=
  dotGeneral_plain_apply _ none A B a b

theorem dg_1024_512 {φ₁ φ₂ : FTy} (A : FVec Ideal Cert.ReferenceIdeal.S8192x1024 φ₁) (B : FVec Ideal Cert.ReferenceIdeal.S1024x512 φ₂) (a : Fin 8192) (b : Fin 512) :
    Host.dotGeneral Cert.ReferenceIdeal.dot_S8192x1024_S1024x512_S8192x512_1_0_0_1_n_n none A B (ix2 a b) = ∑ c : Fin 1024, A (ix2 a c) * B (ix2 c b) :=
  dotGeneral_plain_apply _ none A B a b

theorem dg_512_256 {φ₁ φ₂ : FTy} (A : FVec Ideal Cert.ReferenceIdeal.S8192x512 φ₁) (B : FVec Ideal Cert.ReferenceIdeal.S512x256 φ₂) (a : Fin 8192) (b : Fin 256) :
    Host.dotGeneral Cert.ReferenceIdeal.dot_S8192x512_S512x256_S8192x256_1_0_0_1_n_n none A B (ix2 a b) = ∑ c : Fin 512, A (ix2 a c) * B (ix2 c b) :=
  dotGeneral_plain_apply _ none A B a b

theorem dg_256_1024 {φ₁ φ₂ : FTy} (A : FVec Ideal Cert.ReferenceIdeal.S8192x256 φ₁) (B : FVec Ideal Cert.ReferenceIdeal.S256x1024 φ₂) (a : Fin 8192) (b : Fin 1024) :
    Host.dotGeneral Cert.ReferenceIdeal.dot_S8192x256_S256x1024_S8192x1024_1_0_0_1_n_n none A B (ix2 a b) = ∑ c : Fin 256, A (ix2 a c) * B (ix2 c b) :=
  dotGeneral_plain_apply _ none A B a b

/-! ## A block's rows -/

/-- Row `256·t + p` of the whole batch: the row that row `p` of the block at grid point `t` is. -/
def row (t : Fin 32) (p : Fin 256) : Fin 8192 := ⟨256 * t.val + p.val, by have := t.isLt; have := p.isLt; omega⟩

section Links

variable (t : Fin 32)
variable (x0 : Vec Ideal Cert.KernelIdeal.S256x1024 .f32) (x1 x2 x3 x4 x5 x6 x7 x8 : Vec Ideal Cert.KernelIdeal.S256x512 .f32)
  (x9 x10 : Vec Ideal Cert.KernelIdeal.S1024x512 .bf16) (x11 x12 x13 x14 x15 x16 : Vec Ideal Cert.KernelIdeal.S512x512 .bf16)
  (x17 : Vec Ideal Cert.KernelIdeal.S1x512 .f32) (x18 x19 : Vec Ideal Cert.KernelIdeal.S512x512 .bf16) (x20 : Vec Ideal Cert.KernelIdeal.S1024x512 .bf16)
  (x21 : Vec Ideal Cert.KernelIdeal.S512x256 .bf16) (x22 : Vec Ideal Cert.KernelIdeal.S256x1024 .bf16)
variable (a0 : (⟨Cert.ReferenceIdeal.S8192x1024, .f32⟩ : BufTy).Contents (Elt Ideal)) (a1 a2 a3 a4 a5 a6 a7 a8 : (⟨Cert.ReferenceIdeal.S8192x512, .f32⟩ : BufTy).Contents (Elt Ideal))
  (a9 a10 : (⟨Cert.ReferenceIdeal.S512x1024, .f32⟩ : BufTy).Contents (Elt Ideal)) (a11 a12 a13 a14 a15 a16 : (⟨Cert.ReferenceIdeal.S512x512, .f32⟩ : BufTy).Contents (Elt Ideal))
  (a17 : (⟨Cert.ReferenceIdeal.S512, .f32⟩ : BufTy).Contents (Elt Ideal)) (a18 a19 : (⟨Cert.ReferenceIdeal.S512x512, .f32⟩ : BufTy).Contents (Elt Ideal)) (a20 : (⟨Cert.ReferenceIdeal.S512x1024, .f32⟩ : BufTy).Contents (Elt Ideal))
  (a21 : (⟨Cert.ReferenceIdeal.S256x512, .f32⟩ : BufTy).Contents (Elt Ideal)) (a22 : (⟨Cert.ReferenceIdeal.S1024x256, .f32⟩ : BufTy).Contents (Elt Ideal))

/-- The kernel's operands at grid point `t` against the reference's arrays: the nine row operands are the block's rows of
    the arrays; each weight operand is the matrix the reference multiplies by (the transposed weight, rectified or rescaled
    where the model says so); the bias row is the rectified bias. -/
structure Agree : Prop where
  h0 : ∀ (p : Fin 256) (k : Fin 1024), x0 (ix2 p k) = a0 (ix2 (row t p) k)
  h1 : ∀ (p : Fin 256) (k : Fin 512), x1 (ix2 p k) = a1 (ix2 (row t p) k)
  h2 : ∀ (p : Fin 256) (k : Fin 512), x2 (ix2 p k) = a2 (ix2 (row t p) k)
  h3 : ∀ (p : Fin 256) (k : Fin 512), x3 (ix2 p k) = a3 (ix2 (row t p) k)
  h4 : ∀ (p : Fin 256) (k : Fin 512), x4 (ix2 p k) = a4 (ix2 (row t p) k)
  h5 : ∀ (p : Fin 256) (k : Fin 512), x5 (ix2 p k) = a5 (ix2 (row t p) k)
  h6 : ∀ (p : Fin 256) (k : Fin 512), x6 (ix2 p k) = a6 (ix2 (row t p) k)
  h7 : ∀ (p : Fin 256) (k : Fin 512), x7 (ix2 p k) = a7 (ix2 (row t p) k)
  h8 : ∀ (p : Fin 256) (k : Fin 512), x8 (ix2 p k) = a8 (ix2 (row t p) k)
  w9 : ∀ i, x9 i = val_main_v42 (F := Ideal) a9 i
  w10 : ∀ i, x10 i = val_main_v45 (F := Ideal) a10 i
  w11 : ∀ i, x11 i = val_main_v85 (F := Ideal) a11 i
  w12 : ∀ i, x12 i = val_main_v87 (F := Ideal) a12 i
  w13 : ∀ i, x13 i = val_main_v93 (F := Ideal) a13 i
  w14 : ∀ i, x14 i = val_main_v91 (F := Ideal) a14 i
  w15 : ∀ i, x15 i = val_main_v8 (F := Ideal) a15 i
  w16 : ∀ i, x16 i = val_main_v11 (F := Ideal) a16 i
  w17 : ∀ (j : Fin 512) (r : Fin 8192), x17 (ix2 (0 : Fin 1) j) = val_main_v14 (F := Ideal) a17 (ix2 r j)
  w18 : ∀ i, x18 i = val_main_v22 (F := Ideal) a18 i
  w19 : ∀ i, x19 i = val_main_v64 (F := Ideal) a19 i
  w20 : ∀ i, x20 i = val_main_v30 (F := Ideal) a20 i
  w21 : ∀ i, x21 i = val_main_v71 (F := Ideal) a21 i
  w22 : ∀ i, x22 i = val_main_v73 (F := Ideal) a22 i

variable (H : Agree t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22)
include H

/-- The prior mean: relu(h2 · W_prior_muᵀ). -/
theorem link_muP (p : Fin 256) (j : Fin 512) :
    k0_pay2 (F := Ideal) x2 x15 (ix2 p j) = val_main_v10 (F := Ideal) a2 a15 (ix2 (row t p) j) := by
  unfold k0_pay2 k0_pay1
  simp only [maximumf_apply, mulf_apply, addf_apply, subf_apply, divf_apply, broadcast_apply, truncf_apply, shapeCast_self, exp_apply, tanh_apply, absf_apply, logistic_apply, mm_512_512, H.h2, H.w15,
    val_main_v10_apply, val_main_call4_v0_apply, val_main_call4_cst_apply, val_main_v9, dg_512_512, Ideal.maximumf_def, Ideal.mulf_def, Ideal.addf_def, Ideal.subf_def, Ideal.divf_def, Ideal.hostDivf_def, Ideal.exp_def, Ideal.tanh_def, Ideal.hostUnary_exp_def, Ideal.hostUnary_tanh_def, Ideal.hostNegf_def, Ideal.hostAbsf_def, Ideal.negf_def, Ideal.absf_def, Ideal.logistic_def]

/-- sigma_p = 0.8 · relu(h · W_prior_sigmaᵀ + b) + 0.2 · sigma_p_prev. -/
theorem link_sigP (p : Fin 256) (j : Fin 512) :
    k0_pay4 (F := Ideal) x1 x16 x17 x3 (ix2 p j) = val_main_v21 (F := Ideal) a1 a3 a16 a17 (ix2 (row t p) j) := by
  unfold k0_pay4 k0_pay3
  simp only [maximumf_apply, mulf_apply, addf_apply, subf_apply, divf_apply, broadcast_apply, truncf_apply, shapeCast_self, exp_apply, tanh_apply, absf_apply, logistic_apply, mm_512_512, broadcastTo_1b_ab_apply, H.h1, H.h3, H.w16, H.w17 j (row t p),
    val_main_v21_apply, val_main_v18_apply, val_main_v20_apply, val_main_v17_apply, val_main_v19_apply, val_main_cst_1_apply, val_main_cst_2_apply, val_main_v16_apply, val_main_v15_apply, val_main_call5_v0_apply, val_main_call5_cst_apply, val_main_v12, dg_512_512, Ideal.maximumf_def, Ideal.mulf_def, Ideal.addf_def, Ideal.subf_def, Ideal.divf_def, Ideal.hostDivf_def, Ideal.exp_def, Ideal.tanh_def, Ideal.hostUnary_exp_def, Ideal.hostUnary_tanh_def, Ideal.hostNegf_def, Ideal.hostAbsf_def, Ideal.negf_def, Ideal.absf_def, Ideal.logistic_def]

/-- The gain of the gating chain: sigma_p · relu(W_vip)ᵀ. -/
theorem link_vip (p : Fin 256) (j : Fin 512) :
    k0_pay5 (F := Ideal) x1 x16 x17 x3 x18 (ix2 p j) = val_main_v23 (F := Ideal) a1 a3 a16 a17 a18 (ix2 (row t p) j) := by
  unfold k0_pay5
  simp only [maximumf_apply, mulf_apply, addf_apply, subf_apply, divf_apply, broadcast_apply, truncf_apply, shapeCast_self, exp_apply, tanh_apply, absf_apply, logistic_apply, mm_512_512, link_sigP t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H, H.w18, val_main_v23, dg_512_512]

/-- theta_ff = tanh²(0.4 · u + e^(−50 |u|) · (I · W_I_to_thetaᵀ)), u the previous theta_ff. -/
theorem link_thff (p : Fin 256) (j : Fin 512) :
    k0_pay7 (F := Ideal) (k0_pay6 x0) x4 x20 (ix2 p j) = val_main_v35 (F := Ideal) a0 a4 a20 (ix2 (row t p) j) := by
  unfold k0_pay7 k0_pay6
  simp only [maximumf_apply, mulf_apply, addf_apply, subf_apply, divf_apply, broadcast_apply, truncf_apply, shapeCast_self, exp_apply, tanh_apply, absf_apply, logistic_apply, mm_1024_512, H.h0, H.h4, H.w20,
    val_main_v35_apply, val_main_v34_apply, val_main_v33_apply, val_main_v25_apply, val_main_v24_apply, val_main_cst_3_apply, val_main_v32_apply, val_main_v29_apply, val_main_v28_apply, val_main_v27_apply, val_main_cst_4_apply, val_main_v26_apply, val_main_v31, dg_1024_512, Ideal.maximumf_def, Ideal.mulf_def, Ideal.addf_def, Ideal.subf_def, Ideal.divf_def, Ideal.hostDivf_def, Ideal.exp_def, Ideal.tanh_def, Ideal.hostUnary_exp_def, Ideal.hostUnary_tanh_def, Ideal.hostNegf_def, Ideal.hostAbsf_def, Ideal.negf_def, Ideal.absf_def, Ideal.logistic_def]

/-- theta = 0.1 · theta_prev + theta_ff / (1 + gain). -/
theorem link_theta (p : Fin 256) (j : Fin 512) :
    k0_pay8 (F := Ideal) (k0_pay5 x1 x16 x17 x3 x18) (k0_pay6 x0) x4 x20 x5 (ix2 p j) = val_main_v41 (F := Ideal) a0 a1 a3 a4 a5 a16 a17 a18 a20 (ix2 (row t p) j) := by
  unfold k0_pay8
  simp only [maximumf_apply, mulf_apply, addf_apply, subf_apply, divf_apply, broadcast_apply, truncf_apply, shapeCast_self, exp_apply, tanh_apply, absf_apply, logistic_apply, link_thff t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H, link_vip t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H, H.h5,
    val_main_v41_apply, val_main_v40_apply, val_main_v39_apply, val_main_cst_6_apply, val_main_v38_apply, val_main_v37_apply, val_main_v36_apply, val_main_cst_5_apply, Ideal.maximumf_def, Ideal.mulf_def, Ideal.addf_def, Ideal.subf_def, Ideal.divf_def, Ideal.hostDivf_def, Ideal.exp_def, Ideal.tanh_def, Ideal.hostUnary_exp_def, Ideal.hostUnary_tanh_def, Ideal.hostNegf_def, Ideal.hostAbsf_def, Ideal.negf_def, Ideal.absf_def, Ideal.logistic_def]

/-- The posterior mean: relu(I · W_post_muᵀ). -/
theorem link_muQ (p : Fin 256) (j : Fin 512) :
    k0_pay9 (F := Ideal) (k0_pay6 x0) x9 (ix2 p j) = val_main_v44 (F := Ideal) a0 a9 (ix2 (row t p) j) := by
  unfold k0_pay9 k0_pay6
  simp only [maximumf_apply, mulf_apply, addf_apply, subf_apply, divf_apply, broadcast_apply, truncf_apply, shapeCast_self, exp_apply, tanh_apply, absf_apply, logistic_apply, mm_1024_512, H.h0, H.w9,
    val_main_v44_apply, val_main_call6_v0_apply, val_main_call6_cst_apply, val_main_v43, dg_1024_512, Ideal.maximumf_def, Ideal.mulf_def, Ideal.addf_def, Ideal.subf_def, Ideal.divf_def, Ideal.hostDivf_def, Ideal.exp_def, Ideal.tanh_def, Ideal.hostUnary_exp_def, Ideal.hostUnary_tanh_def, Ideal.hostNegf_def, Ideal.hostAbsf_def, Ideal.negf_def, Ideal.absf_def, Ideal.logistic_def]

/-- The logistic of 0.01 times the posterior spread relu(I · W_post_sigmaᵀ): the kernel's one operation is the
    reference's 1 / (1 + e^(−x)). -/
theorem link_sg (p : Fin 256) (j : Fin 512) :
    k0_pay10 (F := Ideal) (k0_pay6 x0) x10 (ix2 p j) = val_main_v55 (F := Ideal) a0 a10 (ix2 (row t p) j) := by
  unfold k0_pay10 k0_pay6
  simp only [maximumf_apply, mulf_apply, addf_apply, subf_apply, divf_apply, broadcast_apply, truncf_apply, shapeCast_self, exp_apply, tanh_apply, absf_apply, logistic_apply, mm_1024_512, H.h0, H.w10,
    val_main_v55_apply, val_main_v54_apply, val_main_cst_9_apply, val_main_v53_apply, val_main_v52_apply, val_main_cst_8_apply, val_main_v51_apply, val_main_v50_apply, val_main_v49_apply, val_main_v48_apply, val_main_cst_7_apply, val_main_v47_apply, val_main_call7_v0_apply, val_main_call7_cst_apply, val_main_v46, dg_1024_512,
    Ideal.maximumf_def, Ideal.mulf_def, Ideal.addf_def, Ideal.subf_def, Ideal.divf_def, Ideal.hostDivf_def, Ideal.exp_def, Ideal.tanh_def, Ideal.hostUnary_exp_def, Ideal.hostUnary_tanh_def, Ideal.hostNegf_def, Ideal.hostAbsf_def, Ideal.negf_def, Ideal.absf_def, Ideal.logistic_def]
  simp only [Ideal.ofBits_def, Cert.Consts.ofBits_one]

/-- The inhibition: 0.8 · sst_inh_prev + theta · relu(W_theta_to_z)ᵀ. -/
theorem link_sst (p : Fin 256) (j : Fin 512) :
    k0_pay11 (F := Ideal) (k0_pay8 (k0_pay5 x1 x16 x17 x3 x18) (k0_pay6 x0) x4 x20 x5) x6 x19 (ix2 p j) = val_main_v66 (F := Ideal) a0 a1 a3 a4 a5 a6 a16 a17 a18 a19 a20 (ix2 (row t p) j) := by
  unfold k0_pay11
  simp only [maximumf_apply, mulf_apply, addf_apply, subf_apply, divf_apply, broadcast_apply, truncf_apply, shapeCast_self, exp_apply, tanh_apply, absf_apply, logistic_apply, mm_512_512, link_theta t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H, H.h6, H.w19,
    val_main_v66_apply, val_main_v63_apply, val_main_v62_apply, val_main_cst_11_apply, val_main_v65, dg_512_512, Ideal.maximumf_def, Ideal.mulf_def, Ideal.addf_def, Ideal.subf_def, Ideal.divf_def, Ideal.hostDivf_def, Ideal.exp_def, Ideal.tanh_def, Ideal.hostUnary_exp_def, Ideal.hostUnary_tanh_def, Ideal.hostNegf_def, Ideal.hostAbsf_def, Ideal.negf_def, Ideal.absf_def, Ideal.logistic_def]

/-- The latent: z = relu(relu(tanh(mean + eps_z · (logistic − 0.5))) − inhibition). -/
theorem link_z (p : Fin 256) (j : Fin 512) :
    k0_pay12 (F := Ideal) (k0_pay8 (k0_pay5 x1 x16 x17 x3 x18) (k0_pay6 x0) x4 x20 x5) (k0_pay9 (k0_pay6 x0) x9) x7 (k0_pay10 (k0_pay6 x0) x10) (Scalar.ofBits .f32 0x3F000000#32) x6 x19 (ix2 p j) = val_main_v68 (F := Ideal) a0 a1 a3 a4 a5 a6 a7 a9 a10 a16 a17 a18 a19 a20 (ix2 (row t p) j) := by
  unfold k0_pay12
  simp only [maximumf_apply, mulf_apply, addf_apply, subf_apply, divf_apply, broadcast_apply, truncf_apply, shapeCast_self, exp_apply, tanh_apply, absf_apply, logistic_apply, link_muQ t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H, link_sg t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H, link_sst t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H, H.h7,
    val_main_v68_apply, val_main_call9_v0_apply, val_main_call9_cst_apply, val_main_v67_apply, val_main_v61_apply, val_main_call8_v0_apply, val_main_call8_cst_apply, val_main_v60_apply, val_main_v59_apply, val_main_v58_apply, val_main_v57_apply, val_main_v56_apply, val_main_cst_10_apply, Ideal.maximumf_def, Ideal.mulf_def, Ideal.addf_def, Ideal.subf_def, Ideal.divf_def, Ideal.hostDivf_def, Ideal.exp_def, Ideal.tanh_def, Ideal.hostUnary_exp_def, Ideal.hostUnary_tanh_def, Ideal.hostNegf_def, Ideal.hostAbsf_def, Ideal.negf_def, Ideal.absf_def, Ideal.logistic_def]

/-- The reference computes the latent a second time (its gradient is cut there; its value is the same). -/
theorem zEnergy_eq (i : Cert.ReferenceIdeal.S8192x512.Idx) :
    val_main_v70 (F := Ideal) a0 a1 a3 a4 a5 a6 a7 a9 a10 a16 a17 a18 a19 a20 i = val_main_v68 (F := Ideal) a0 a1 a3 a4 a5 a6 a7 a9 a10 a16 a17 a18 a19 a20 i := rfl

/-- The latent handed to the matrix unit is the latent. -/
theorem zb_apply (i : Cert.KernelIdeal.S256x512.Idx) : k0_pay13 (F := Ideal) (k0_pay8 (k0_pay5 x1 x16 x17 x3 x18) (k0_pay6 x0) x4 x20 x5) (k0_pay9 (k0_pay6 x0) x9) x7 (k0_pay10 (k0_pay6 x0) x10) (Scalar.ofBits .f32 0x3F000000#32) x6 x19 i = k0_pay12 (F := Ideal) (k0_pay8 (k0_pay5 x1 x16 x17 x3 x18) (k0_pay6 x0) x4 x20 x5) (k0_pay9 (k0_pay6 x0) x9) x7 (k0_pay10 (k0_pay6 x0) x10) (Scalar.ofBits .f32 0x3F000000#32) x6 x19 i := rfl

/-- The reconstruction: logistic((z · W_rec1ᵀ) · W_rec2ᵀ − 2). -/
theorem link_Ihat (p : Fin 256) (q : Fin 1024) :
    k0_pay14 (F := Ideal) (k0_pay8 (k0_pay5 x1 x16 x17 x3 x18) (k0_pay6 x0) x4 x20 x5) (k0_pay9 (k0_pay6 x0) x9) x7 (k0_pay10 (k0_pay6 x0) x10) (Scalar.ofBits .f32 0x3F000000#32) x6 x19 x21 x22 (ix2 p q) = val_main_v82 (F := Ideal) a0 a1 a3 a4 a5 a6 a7 a9 a10 a16 a17 a18 a19 a20 a21 a22 (ix2 (row t p) q) := by
  unfold k0_pay14
  simp only [maximumf_apply, mulf_apply, addf_apply, subf_apply, divf_apply, broadcast_apply, truncf_apply, shapeCast_self, exp_apply, tanh_apply, absf_apply, logistic_apply, mm_512_256, mm_256_1024, zb_apply t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H, link_z t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H, H.w21, H.w22,
    val_main_v82_apply, val_main_v81_apply, val_main_cst_14_apply, val_main_v80_apply, val_main_v79_apply, val_main_cst_13_apply, val_main_v78_apply, val_main_v77_apply, val_main_v76_apply, val_main_v75_apply, val_main_cst_12_apply, val_main_v74, val_main_v72, dg_512_256, dg_256_1024,
    Ideal.maximumf_def, Ideal.mulf_def, Ideal.addf_def, Ideal.subf_def, Ideal.divf_def, Ideal.hostDivf_def, Ideal.exp_def, Ideal.tanh_def, Ideal.hostUnary_exp_def, Ideal.hostUnary_tanh_def, Ideal.hostNegf_def, Ideal.hostAbsf_def, Ideal.negf_def, Ideal.absf_def, Ideal.logistic_def]
  simp only [Ideal.ofBits_def, Cert.Consts.ofBits_one]

/-- The first error: (I − reconstruction)². -/
theorem link_l1 (p : Fin 256) (q : Fin 1024) :
    k0_pay15 (F := Ideal) x0 (k0_pay14 (k0_pay8 (k0_pay5 x1 x16 x17 x3 x18) (k0_pay6 x0) x4 x20 x5) (k0_pay9 (k0_pay6 x0) x9) x7 (k0_pay10 (k0_pay6 x0) x10) (Scalar.ofBits .f32 0x3F000000#32) x6 x19 x21 x22) (ix2 p q) = val_main_v98 (F := Ideal) a0 a1 a3 a4 a5 a6 a7 a9 a10 a16 a17 a18 a19 a20 a21 a22 (ix2 (row t p) q) := by
  unfold k0_pay15
  simp only [maximumf_apply, mulf_apply, addf_apply, subf_apply, divf_apply, broadcast_apply, truncf_apply, shapeCast_self, exp_apply, tanh_apply, absf_apply, logistic_apply, link_Ihat t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H, H.h0, val_main_v98_apply, val_main_v97_apply, Ideal.maximumf_def, Ideal.mulf_def, Ideal.addf_def, Ideal.subf_def, Ideal.divf_def, Ideal.hostDivf_def, Ideal.exp_def, Ideal.tanh_def, Ideal.hostUnary_exp_def, Ideal.hostUnary_tanh_def, Ideal.hostNegf_def, Ideal.hostAbsf_def, Ideal.negf_def, Ideal.absf_def, Ideal.logistic_def]

/-- The second error: (z − (prior mean + eps_zhat · sigma_p))². -/
theorem link_l2 (p : Fin 256) (j : Fin 512) :
    k0_pay16 (F := Ideal) (k0_pay2 x2 x15) (k0_pay4 x1 x16 x17 x3) (k0_pay12 (k0_pay8 (k0_pay5 x1 x16 x17 x3 x18) (k0_pay6 x0) x4 x20 x5) (k0_pay9 (k0_pay6 x0) x9) x7 (k0_pay10 (k0_pay6 x0) x10) (Scalar.ofBits .f32 0x3F000000#32) x6 x19) x8 (ix2 p j) = val_main_v100 (F := Ideal) a0 a1 a2 a3 a4 a5 a6 a7 a8 a9 a10 a15 a16 a17 a18 a19 a20 (ix2 (row t p) j) := by
  unfold k0_pay16
  simp only [maximumf_apply, mulf_apply, addf_apply, subf_apply, divf_apply, broadcast_apply, truncf_apply, shapeCast_self, exp_apply, tanh_apply, absf_apply, logistic_apply, link_muP t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H, link_sigP t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H, link_z t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H, H.h8,
    val_main_v100_apply, val_main_v99_apply, val_main_v84_apply, val_main_v83_apply, Ideal.maximumf_def, Ideal.mulf_def, Ideal.addf_def, Ideal.subf_def, Ideal.divf_def, Ideal.hostDivf_def, Ideal.exp_def, Ideal.tanh_def, Ideal.hostUnary_exp_def, Ideal.hostUnary_tanh_def, Ideal.hostNegf_def, Ideal.hostAbsf_def, Ideal.negf_def, Ideal.absf_def, Ideal.logistic_def]

/-- The first recurrent update: relu(z · W_z_to_hᵀ + h · W_hhᵀ), W_hh the rescaled recurrent weight. -/
theorem link_hnew (p : Fin 256) (j : Fin 512) :
    k0_pay17 (F := Ideal) (k0_pay3 x1) (k0_pay13 (k0_pay8 (k0_pay5 x1 x16 x17 x3 x18) (k0_pay6 x0) x4 x20 x5) (k0_pay9 (k0_pay6 x0) x9) x7 (k0_pay10 (k0_pay6 x0) x10) (Scalar.ofBits .f32 0x3F000000#32) x6 x19) x11 x12 (ix2 p j) = val_main_v90 (F := Ideal) a0 a1 a3 a4 a5 a6 a7 a9 a10 a11 a12 a16 a17 a18 a19 a20 (ix2 (row t p) j) := by
  unfold k0_pay17 k0_pay3
  simp only [maximumf_apply, mulf_apply, addf_apply, subf_apply, divf_apply, broadcast_apply, truncf_apply, shapeCast_self, exp_apply, tanh_apply, absf_apply, logistic_apply, mm_512_512, zb_apply t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H, link_z t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H, H.h1, H.w11, H.w12,
    val_main_v90_apply, val_main_call11_v0_apply, val_main_call11_cst_apply, val_main_v89_apply, val_main_v86, val_main_v88, dg_512_512, Ideal.maximumf_def, Ideal.mulf_def, Ideal.addf_def, Ideal.subf_def, Ideal.divf_def, Ideal.hostDivf_def, Ideal.exp_def, Ideal.tanh_def, Ideal.hostUnary_exp_def, Ideal.hostUnary_tanh_def, Ideal.hostNegf_def, Ideal.hostAbsf_def, Ideal.negf_def, Ideal.absf_def, Ideal.logistic_def]

/-- The second recurrent update: relu(z · W_z_to_h2ᵀ + h2 · W_h2_to_h2ᵀ). -/
theorem link_h2new (p : Fin 256) (j : Fin 512) :
    k0_pay18 (F := Ideal) (k0_pay1 x2) (k0_pay13 (k0_pay8 (k0_pay5 x1 x16 x17 x3 x18) (k0_pay6 x0) x4 x20 x5) (k0_pay9 (k0_pay6 x0) x9) x7 (k0_pay10 (k0_pay6 x0) x10) (Scalar.ofBits .f32 0x3F000000#32) x6 x19) x14 x13 (ix2 p j) = val_main_v96 (F := Ideal) a0 a1 a2 a3 a4 a5 a6 a7 a9 a10 a13 a14 a16 a17 a18 a19 a20 (ix2 (row t p) j) := by
  unfold k0_pay18 k0_pay1
  simp only [maximumf_apply, mulf_apply, addf_apply, subf_apply, divf_apply, broadcast_apply, truncf_apply, shapeCast_self, exp_apply, tanh_apply, absf_apply, logistic_apply, mm_512_512, zb_apply t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H, link_z t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H, H.h2, H.w14, H.w13,
    val_main_v96_apply, val_main_call12_v0_apply, val_main_call12_cst_apply, val_main_v95_apply, val_main_v92, val_main_v94, dg_512_512, Ideal.maximumf_def, Ideal.mulf_def, Ideal.addf_def, Ideal.subf_def, Ideal.divf_def, Ideal.hostDivf_def, Ideal.exp_def, Ideal.tanh_def, Ideal.hostUnary_exp_def, Ideal.hostUnary_tanh_def, Ideal.hostNegf_def, Ideal.hostAbsf_def, Ideal.negf_def, Ideal.absf_def, Ideal.logistic_def]

end Links

end Cert.Bridge

end
-- ==== Proof.ConcatSlabs.lean ====
/-
  The reference's result, read slab by slab.

  The reference ends by joining eleven arrays along the columns: the latent (512 columns), the two recurrent updates,
  sigma_p, theta, the inhibition, theta_ff, the latent once more (512 columns each), the reconstruction and its squared
  error (1024 columns each) and the second squared error (512 columns), 6656 columns in all. An entry of the joined
  array at row r and column (first column of a slab) + j is that slab's array at (r, j): the slab is the one whose span
  of columns holds the column, and the extents of the slabs before it add up to its first column.
-/
import proofs.«151506_j27513560498312_2_alg».proof.Proof.Gen.ReferenceIdeal.Read
import Idealize.ShloMosaic.Lib.Pipeline.Value

noncomputable section

namespace Cert.Bridge

open Idealize.ShloMosaic Idealize.ShloMosaic.ValueIdx
open Cert.ReferenceIdeal.Read

variable (a0 : (⟨Cert.ReferenceIdeal.S8192x1024, .f32⟩ : BufTy).Contents (Elt Ideal)) (a1 a2 a3 a4 a5 a6 a7 a8 : (⟨Cert.ReferenceIdeal.S8192x512, .f32⟩ : BufTy).Contents (Elt Ideal))
  (a9 a10 : (⟨Cert.ReferenceIdeal.S512x1024, .f32⟩ : BufTy).Contents (Elt Ideal)) (a11 a12 a13 a14 a15 a16 : (⟨Cert.ReferenceIdeal.S512x512, .f32⟩ : BufTy).Contents (Elt Ideal))
  (a17 : (⟨Cert.ReferenceIdeal.S512, .f32⟩ : BufTy).Contents (Elt Ideal)) (a18 a19 : (⟨Cert.ReferenceIdeal.S512x512, .f32⟩ : BufTy).Contents (Elt Ideal)) (a20 : (⟨Cert.ReferenceIdeal.S512x1024, .f32⟩ : BufTy).Contents (Elt Ideal))
  (a21 : (⟨Cert.ReferenceIdeal.S256x512, .f32⟩ : BufTy).Contents (Elt Ideal)) (a22 : (⟨Cert.ReferenceIdeal.S1024x256, .f32⟩ : BufTy).Contents (Elt Ideal))

/-- Columns 0 … 511 of the reference's result are its array `v68`. -/
theorem gref_z (r : Fin 8192) (j : Fin 512) (h : 0 + j.val < 6656) :
    val_main_v101 (F := Ideal) a0 a1 a2 a3 a4 a5 a6 a7 a8 a9 a10 a11 a12 a13 a14 a15 a16 a17 a18 a19 a20 a21 a22 (ix2 r ⟨0 + j.val, h⟩) = val_main_v68 (F := Ideal) a0 a1 a3 a4 a5 a6 a7 a9 a10 a16 a17 a18 a19 a20 (ix2 r j) := by
  unfold val_main_v101
  refine concatenate_apply_piece (t := Cert.ReferenceIdeal.S8192x6656) 1 _ _ _ 0 ?hk Cert.ReferenceIdeal.S8192x512 (val_main_v68 (F := Ideal) a0 a1 a3 a4 a5 a6 a7 a9 a10 a16 a17 a18 a19 a20) ?hxk ?hr 0 ?hpre (ix2 r j) ?hi ?ha
  case hk => show 0 < 11; omega
  case hxk => rfl
  case hr => rfl
  case hpre => rfl
  case hi =>
    intro b hb
    match b, hb with
    | ⟨0, _⟩, _ => rfl
    | ⟨1, _⟩, hb => exact absurd rfl hb
  case ha => rfl

/-- Columns 512 … 1023 of the reference's result are its array `v90`. -/
theorem gref_hnew (r : Fin 8192) (j : Fin 512) (h : 512 + j.val < 6656) :
    val_main_v101 (F := Ideal) a0 a1 a2 a3 a4 a5 a6 a7 a8 a9 a10 a11 a12 a13 a14 a15 a16 a17 a18 a19 a20 a21 a22 (ix2 r ⟨512 + j.val, h⟩) = val_main_v90 (F := Ideal) a0 a1 a3 a4 a5 a6 a7 a9 a10 a11 a12 a16 a17 a18 a19 a20 (ix2 r j) := by
  unfold val_main_v101
  refine concatenate_apply_piece (t := Cert.ReferenceIdeal.S8192x6656) 1 _ _ _ 1 ?hk Cert.ReferenceIdeal.S8192x512 (val_main_v90 (F := Ideal) a0 a1 a3 a4 a5 a6 a7 a9 a10 a11 a12 a16 a17 a18 a19 a20) ?hxk ?hr 512 ?hpre (ix2 r j) ?hi ?ha
  case hk => show 1 < 11; omega
  case hxk => rfl
  case hr => rfl
  case hpre => rfl
  case hi =>
    intro b hb
    match b, hb with
    | ⟨0, _⟩, _ => rfl
    | ⟨1, _⟩, hb => exact absurd rfl hb
  case ha => rfl

/-- Columns 1024 … 1535 of the reference's result are its array `v96`. -/
theorem gref_h2new (r : Fin 8192) (j : Fin 512) (h : 1024 + j.val < 6656) :
    val_main_v101 (F := Ideal) a0 a1 a2 a3 a4 a5 a6 a7 a8 a9 a10 a11 a12 a13 a14 a15 a16 a17 a18 a19 a20 a21 a22 (ix2 r ⟨1024 + j.val, h⟩) = val_main_v96 (F := Ideal) a0 a1 a2 a3 a4 a5 a6 a7 a9 a10 a13 a14 a16 a17 a18 a19 a20 (ix2 r j) := by
  unfold val_main_v101
  refine concatenate_apply_piece (t := Cert.ReferenceIdeal.S8192x6656) 1 _ _ _ 2 ?hk Cert.ReferenceIdeal.S8192x512 (val_main_v96 (F := Ideal) a0 a1 a2 a3 a4 a5 a6 a7 a9 a10 a13 a14 a16 a17 a18 a19 a20) ?hxk ?hr 1024 ?hpre (ix2 r j) ?hi ?ha
  case hk => show 2 < 11; omega
  case hxk => rfl
  case hr => rfl
  case hpre => rfl
  case hi =>
    intro b hb
    match b, hb with
    | ⟨0, _⟩, _ => rfl
    | ⟨1, _⟩, hb => exact absurd rfl hb
  case ha => rfl

/-- Columns 1536 … 2047 of the reference's result are its array `v21`. -/
theorem gref_sigP (r : Fin 8192) (j : Fin 512) (h : 1536 + j.val < 6656) :
    val_main_v101 (F := Ideal) a0 a1 a2 a3 a4 a5 a6 a7 a8 a9 a10 a11 a12 a13 a14 a15 a16 a17 a18 a19 a20 a21 a22 (ix2 r ⟨1536 + j.val, h⟩) = val_main_v21 (F := Ideal) a1 a3 a16 a17 (ix2 r j) := by
  unfold val_main_v101
  refine concatenate_apply_piece (t := Cert.ReferenceIdeal.S8192x6656) 1 _ _ _ 3 ?hk Cert.ReferenceIdeal.S8192x512 (val_main_v21 (F := Ideal) a1 a3 a16 a17) ?hxk ?hr 1536 ?hpre (ix2 r j) ?hi ?ha
  case hk => show 3 < 11; omega
  case hxk => rfl
  case hr => rfl
  case hpre => rfl
  case hi =>
    intro b hb
    match b, hb with
    | ⟨0, _⟩, _ => rfl
    | ⟨1, _⟩, hb => exact absurd rfl hb
  case ha => rfl

/-- Columns 2048 … 2559 of the reference's result are its array `v41`. -/
theorem gref_theta (r : Fin 8192) (j : Fin 512) (h : 2048 + j.val < 6656) :
    val_main_v101 (F := Ideal) a0 a1 a2 a3 a4 a5 a6 a7 a8 a9 a10 a11 a12 a13 a14 a15 a16 a17 a18 a19 a20 a21 a22 (ix2 r ⟨2048 + j.val, h⟩) = val_main_v41 (F := Ideal) a0 a1 a3 a4 a5 a16 a17 a18 a20 (ix2 r j) := by
  unfold val_main_v101
  refine concatenate_apply_piece (t := Cert.ReferenceIdeal.S8192x6656) 1 _ _ _ 4 ?hk Cert.ReferenceIdeal.S8192x512 (val_main_v41 (F := Ideal) a0 a1 a3 a4 a5 a16 a17 a18 a20) ?hxk ?hr 2048 ?hpre (ix2 r j) ?hi ?ha
  case hk => show 4 < 11; omega
  case hxk => rfl
  case hr => rfl
  case hpre => rfl
  case hi =>
    intro b hb
    match b, hb with
    | ⟨0, _⟩, _ => rfl
    | ⟨1, _⟩, hb => exact absurd rfl hb
  case ha => rfl

/-- Columns 2560 … 3071 of the reference's result are its array `v66`. -/
theorem gref_sst (r : Fin 8192) (j : Fin 512) (h : 2560 + j.val < 6656) :
    val_main_v101 (F := Ideal) a0 a1 a2 a3 a4 a5 a6 a7 a8 a9 a10 a11 a12 a13 a14 a15 a16 a17 a18 a19 a20 a21 a22 (ix2 r ⟨2560 + j.val, h⟩) = val_main_v66 (F := Ideal) a0 a1 a3 a4 a5 a6 a16 a17 a18 a19 a20 (ix2 r j) := by
  unfold val_main_v101
  refine concatenate_apply_piece (t := Cert.ReferenceIdeal.S8192x6656) 1 _ _ _ 5 ?hk Cert.ReferenceIdeal.S8192x512 (val_main_v66 (F := Ideal) a0 a1 a3 a4 a5 a6 a16 a17 a18 a19 a20) ?hxk ?hr 2560 ?hpre (ix2 r j) ?hi ?ha
  case hk => show 5 < 11; omega
  case hxk => rfl
  case hr => rfl
  case hpre => rfl
  case hi =>
    intro b hb
    match b, hb with
    | ⟨0, _⟩, _ => rfl
    | ⟨1, _⟩, hb => exact absurd rfl hb
  case ha => rfl

/-- Columns 3072 … 3583 of the reference's result are its array `v35`. -/
theorem gref_thff (r : Fin 8192) (j : Fin 512) (h : 3072 + j.val < 6656) :
    val_main_v101 (F := Ideal) a0 a1 a2 a3 a4 a5 a6 a7 a8 a9 a10 a11 a12 a13 a14 a15 a16 a17 a18 a19 a20 a21 a22 (ix2 r ⟨3072 + j.val, h⟩) = val_main_v35 (F := Ideal) a0 a4 a20 (ix2 r j) := by
  unfold val_main_v101
  refine concatenate_apply_piece (t := Cert.ReferenceIdeal.S8192x6656) 1 _ _ _ 6 ?hk Cert.ReferenceIdeal.S8192x512 (val_main_v35 (F := Ideal) a0 a4 a20) ?hxk ?hr 3072 ?hpre (ix2 r j) ?hi ?ha
  case hk => show 6 < 11; omega
  case hxk => rfl
  case hr => rfl
  case hpre => rfl
  case hi =>
    intro b hb
    match b, hb with
    | ⟨0, _⟩, _ => rfl
    | ⟨1, _⟩, hb => exact absurd rfl hb
  case ha => rfl

/-- Columns 3584 … 4095 of the reference's result are its array `v70`. -/
theorem gref_zen (r : Fin 8192) (j : Fin 512) (h : 3584 + j.val < 6656) :
    val_main_v101 (F := Ideal) a0 a1 a2 a3 a4 a5 a6 a7 a8 a9 a10 a11 a12 a13 a14 a15 a16 a17 a18 a19 a20 a21 a22 (ix2 r ⟨3584 + j.val, h⟩) = val_main_v70 (F := Ideal) a0 a1 a3 a4 a5 a6 a7 a9 a10 a16 a17 a18 a19 a20 (ix2 r j) := by
  unfold val_main_v101
  refine concatenate_apply_piece (t := Cert.ReferenceIdeal.S8192x6656) 1 _ _ _ 7 ?hk Cert.ReferenceIdeal.S8192x512 (val_main_v70 (F := Ideal) a0 a1 a3 a4 a5 a6 a7 a9 a10 a16 a17 a18 a19 a20) ?hxk ?hr 3584 ?hpre (ix2 r j) ?hi ?ha
  case hk => show 7 < 11; omega
  case hxk => rfl
  case hr => rfl
  case hpre => rfl
  case hi =>
    intro b hb
    match b, hb with
    | ⟨0, _⟩, _ => rfl
    | ⟨1, _⟩, hb => exact absurd rfl hb
  case ha => rfl

/-- Columns 4096 … 5119 of the reference's result are its array `v82`. -/
theorem gref_Ihat (r : Fin 8192) (j : Fin 1024) (h : 4096 + j.val < 6656) :
    val_main_v101 (F := Ideal) a0 a1 a2 a3 a4 a5 a6 a7 a8 a9 a10 a11 a12 a13 a14 a15 a16 a17 a18 a19 a20 a21 a22 (ix2 r ⟨4096 + j.val, h⟩) = val_main_v82 (F := Ideal) a0 a1 a3 a4 a5 a6 a7 a9 a10 a16 a17 a18 a19 a20 a21 a22 (ix2 r j) := by
  unfold val_main_v101
  refine concatenate_apply_piece (t := Cert.ReferenceIdeal.S8192x6656) 1 _ _ _ 8 ?hk Cert.ReferenceIdeal.S8192x1024 (val_main_v82 (F := Ideal) a0 a1 a3 a4 a5 a6 a7 a9 a10 a16 a17 a18 a19 a20 a21 a22) ?hxk ?hr 4096 ?hpre (ix2 r j) ?hi ?ha
  case hk => show 8 < 11; omega
  case hxk => rfl
  case hr => rfl
  case hpre => rfl
  case hi =>
    intro b hb
    match b, hb with
    | ⟨0, _⟩, _ => rfl
    | ⟨1, _⟩, hb => exact absurd rfl hb
  case ha => rfl

set_option maxHeartbeats 1600000 in
/-- Columns 5120 … 6143 of the reference's result are its array `v98`. -/
theorem gref_l1 (r : Fin 8192) (j : Fin 1024) (h : 5120 + j.val < 6656) :
    val_main_v101 (F := Ideal) a0 a1 a2 a3 a4 a5 a6 a7 a8 a9 a10 a11 a12 a13 a14 a15 a16 a17 a18 a19 a20 a21 a22 (ix2 r ⟨5120 + j.val, h⟩) = val_main_v98 (F := Ideal) a0 a1 a3 a4 a5 a6 a7 a9 a10 a16 a17 a18 a19 a20 a21 a22 (ix2 r j) := by
  unfold val_main_v101
  refine concatenate_apply_piece (t := Cert.ReferenceIdeal.S8192x6656) 1 _ _ _ 9 ?hk Cert.ReferenceIdeal.S8192x1024 (val_main_v98 (F := Ideal) a0 a1 a3 a4 a5 a6 a7 a9 a10 a16 a17 a18 a19 a20 a21 a22) ?hxk ?hr 5120 ?hpre (ix2 r j) ?hi ?ha
  case hk => show 9 < 11; omega
  case hxk => rfl
  case hr => rfl
  case hpre => rfl
  case hi =>
    intro b hb
    match b, hb with
    | ⟨0, _⟩, _ => rfl
    | ⟨1, _⟩, hb => exact absurd rfl hb
  case ha => rfl

set_option maxHeartbeats 1600000 in
/-- Columns 6144 … 6655 of the reference's result are its array `v100`. -/
theorem gref_l2 (r : Fin 8192) (j : Fin 512) (h : 6144 + j.val < 6656) :
    val_main_v101 (F := Ideal) a0 a1 a2 a3 a4 a5 a6 a7 a8 a9 a10 a11 a12 a13 a14 a15 a16 a17 a18 a19 a20 a21 a22 (ix2 r ⟨6144 + j.val, h⟩) = val_main_v100 (F := Ideal) a0 a1 a2 a3 a4 a5 a6 a7 a8 a9 a10 a15 a16 a17 a18 a19 a20 (ix2 r j) := by
  unfold val_main_v101
  refine concatenate_apply_piece (t := Cert.ReferenceIdeal.S8192x6656) 1 _ _ _ 10 ?hk Cert.ReferenceIdeal.S8192x512 (val_main_v100 (F := Ideal) a0 a1 a2 a3 a4 a5 a6 a7 a8 a9 a10 a15 a16 a17 a18 a19 a20) ?hxk ?hr 6144 ?hpre (ix2 r j) ?hi ?ha
  case hk => show 10 < 11; omega
  case hxk => rfl
  case hr => rfl
  case hpre => rfl
  case hi =>
    intro b hb
    match b, hb with
    | ⟨0, _⟩, _ => rfl
    | ⟨1, _⟩, hb => exact absurd rfl hb
  case ha => rfl

end Cert.Bridge

end
-- ==== Proof.BlockPieces.lean ====
/-
  What the kernel's body leaves in its output block, piece by piece, is the block of the reference's result.

  At a grid point the body writes its [256, 6656] output block through eleven stores, one per column slab: the latent at
  columns 0 … 511, the two recurrent updates, sigma_p, theta, the inhibition, theta_ff, the latent again, the
  reconstruction and its squared error (1024 columns each), and the second squared error at columns 6144 … 6655. The
  reference joins the same eleven arrays, in the same order, along the columns. So under the agreement of the operands
  (Proof/RowLinks.lean) each stored piece, read at its own index (p, j), is the reference's result at row 256·t + p and
  column (the slab's first column) + j: the row links give the value, the join read at a column gives the slab.
-/
import proofs.«151506_j27513560498312_2_alg».proof.Proof.KernelIdealRunA
import proofs.«151506_j27513560498312_2_alg».proof.Proof.RowLinks
import proofs.«151506_j27513560498312_2_alg».proof.Proof.ConcatSlabs

set_option maxRecDepth 16384

noncomputable section

namespace Cert.Bridge

open Idealize.ShloMosaic Idealize.ShloMosaic.TcCoe Idealize.ShloMosaic.ValueIdx Idealize.ShloMosaic.Tactic Idealize.SL.Sem
open Cert.KernelIdeal Cert.KernelIdeal.Gen Cert.KernelIdeal.GenP
open Cert.ReferenceIdeal.Read

theorem zero_offsets : (![0, 0] : Fin 2 → Nat) = fun _ => 0 := funext fun a => by fin_cases a <;> rfl

/-- A store's rectangle of `n` columns starting at column `off` places its own index (p, j) at (p, off + j) of the block. -/
theorem emb_slab (off n : Nat) (inb : ∀ a, (![0, off] : Fin 2 → Nat) a + (![256, n] : Fin 2 → Nat) a ≤ S256x6656.size a)
    (p : Fin 256) (j : Fin n) (h : off + j.val < 6656) :
    (Rect.unit (s := S256x6656) ![0, off] ![256, n] inb).emb (ix2 p j) = ix2 p ⟨off + j.val, h⟩ := by
  funext a; apply Fin.ext
  match a with
  | ⟨0, _⟩ => show 0 + 1 * p.val = p.val; omega
  | ⟨1, _⟩ => show off + 1 * j.val = off + j.val; omega

/-- Block `t` of a whole-batch array with 6656 columns: its rows 256·t … 256·t + 255. -/
def blockOf (t : Fin 32) (G : Cert.ReferenceIdeal.S8192x6656.Idx → EReal) : S256x6656.Idx → EReal :=
  fun y => G (ix2 (row t (y 0)) (y 1))

/-- Every piece the body's run leaves in the output block agrees with block `t` of the reference's result. -/
theorem pieces_agree (t : Fin 32) (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S1x512 .f32) (harg18 : arg18.IsWhole) (arg19 : Memref sig .tc .vmem S512x512 .bf16) (harg19 : arg19.IsWhole) (arg20 : Memref sig .tc .vmem S512x512 .bf16) (harg20 : arg20.IsWhole) (arg21 : Memref sig .tc .vmem S1024x512 .bf16) (harg21 : arg21.IsWhole) (arg22 : Memref sig .tc .vmem S512x256 .bf16) (harg22 : arg22.IsWhole) (arg23 : Memref sig .tc .vmem S256x1024 .bf16) (harg23 : arg23.IsWhole) (arg24 : Memref sig .tc .vmem S256x6656 .f32) (harg24 : arg24.IsWhole)
    (x0 : Vec Ideal S256x1024 .f32) (x1 x2 x3 x4 x5 x6 x7 x8 : Vec Ideal S256x512 .f32)
    (x9 x10 : Vec Ideal S1024x512 .bf16) (x11 x12 x13 x14 x15 x16 : Vec Ideal S512x512 .bf16)
    (x17 : Vec Ideal S1x512 .f32) (x18 x19 : Vec Ideal S512x512 .bf16) (x20 : Vec Ideal S1024x512 .bf16)
    (x21 : Vec Ideal S512x256 .bf16) (x22 : Vec Ideal S256x1024 .bf16)
    (a0 : (⟨Cert.ReferenceIdeal.S8192x1024, .f32⟩ : BufTy).Contents (Elt Ideal)) (a1 a2 a3 a4 a5 a6 a7 a8 : (⟨Cert.ReferenceIdeal.S8192x512, .f32⟩ : BufTy).Contents (Elt Ideal))
    (a9 a10 : (⟨Cert.ReferenceIdeal.S512x1024, .f32⟩ : BufTy).Contents (Elt Ideal)) (a11 a12 a13 a14 a15 a16 : (⟨Cert.ReferenceIdeal.S512x512, .f32⟩ : BufTy).Contents (Elt Ideal))
    (a17 : (⟨Cert.ReferenceIdeal.S512, .f32⟩ : BufTy).Contents (Elt Ideal)) (a18 a19 : (⟨Cert.ReferenceIdeal.S512x512, .f32⟩ : BufTy).Contents (Elt Ideal)) (a20 : (⟨Cert.ReferenceIdeal.S512x1024, .f32⟩ : BufTy).Contents (Elt Ideal))
    (a21 : (⟨Cert.ReferenceIdeal.S256x512, .f32⟩ : BufTy).Contents (Elt Ideal)) (a22 : (⟨Cert.ReferenceIdeal.S1024x256, .f32⟩ : BufTy).Contents (Elt Ideal))
    (H : Agree t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22) :
    ∀ pc ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22).1, ∀ x : pc.1.shape.Idx,
      pc.2 x = blockOf t (val_main_v101 (F := Ideal) a0 a1 a2 a3 a4 a5 a6 a7 a8 a9 a10 a11 a12 a13 a14 a15 a16 a17 a18 a19 a20 a21 a22) (pc.1.emb x) := by
  unfold kernelRun0_A
  dsimp only
  sl_unfold_run_names
  simp only [View.readAt_eq_ld, Memref.IsWhole.read_unread, View.ld_unit_zero (S := S256x512) zero_offsets,
    View.ld_unit_zero (S := S256x1024) zero_offsets, View.ld_unit_zero (S := S512x512) zero_offsets,
    View.ld_unit_zero (S := S1024x512) zero_offsets, View.ld_unit_zero (S := S1x512) zero_offsets,
    View.ld_unit_zero (S := S512x256) zero_offsets]
  intro pc hpc x
  simp only [List.mem_cons, List.not_mem_nil, or_false] at hpc
  rcases hpc with rfl | rfl | rfl | rfl | rfl | rfl | rfl | rfl | rfl | rfl | rfl
  · -- columns 1024 … 1535
    obtain ⟨p, j, rfl⟩ : ∃ (p : Fin 256) (j : Fin 512), x = ix2 p j := ⟨x 0, x 1, eq_ix2 x⟩
    have hb : 1024 + j.val < 6656 := by have := j.isLt; omega
    rw [emb_slab 1024 512 _ p j hb]
    exact (link_h2new t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H p j).trans (gref_h2new a0 a1 a2 a3 a4 a5 a6 a7 a8 a9 a10 a11 a12 a13 a14 a15 a16 a17 a18 a19 a20 a21 a22 (row t p) j hb).symm
  · -- columns 512 … 1023
    obtain ⟨p, j, rfl⟩ : ∃ (p : Fin 256) (j : Fin 512), x = ix2 p j := ⟨x 0, x 1, eq_ix2 x⟩
    have hb : 512 + j.val < 6656 := by have := j.isLt; omega
    rw [emb_slab 512 512 _ p j hb]
    exact (link_hnew t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H p j).trans (gref_hnew a0 a1 a2 a3 a4 a5 a6 a7 a8 a9 a10 a11 a12 a13 a14 a15 a16 a17 a18 a19 a20 a21 a22 (row t p) j hb).symm
  · -- columns 6144 … 6655
    obtain ⟨p, j, rfl⟩ : ∃ (p : Fin 256) (j : Fin 512), x = ix2 p j := ⟨x 0, x 1, eq_ix2 x⟩
    have hb : 6144 + j.val < 6656 := by have := j.isLt; omega
    rw [emb_slab 6144 512 _ p j hb]
    exact (link_l2 t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H p j).trans (gref_l2 a0 a1 a2 a3 a4 a5 a6 a7 a8 a9 a10 a11 a12 a13 a14 a15 a16 a17 a18 a19 a20 a21 a22 (row t p) j hb).symm
  · -- columns 5120 … 6143
    obtain ⟨p, q, rfl⟩ : ∃ (p : Fin 256) (q : Fin 1024), x = ix2 p q := ⟨x 0, x 1, eq_ix2 x⟩
    have hb : 5120 + q.val < 6656 := by have := q.isLt; omega
    rw [emb_slab 5120 1024 _ p q hb]
    exact (link_l1 t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H p q).trans (gref_l1 a0 a1 a2 a3 a4 a5 a6 a7 a8 a9 a10 a11 a12 a13 a14 a15 a16 a17 a18 a19 a20 a21 a22 (row t p) q hb).symm
  · -- columns 4096 … 5119
    obtain ⟨p, q, rfl⟩ : ∃ (p : Fin 256) (q : Fin 1024), x = ix2 p q := ⟨x 0, x 1, eq_ix2 x⟩
    have hb : 4096 + q.val < 6656 := by have := q.isLt; omega
    rw [emb_slab 4096 1024 _ p q hb]
    exact (link_Ihat t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H p q).trans (gref_Ihat a0 a1 a2 a3 a4 a5 a6 a7 a8 a9 a10 a11 a12 a13 a14 a15 a16 a17 a18 a19 a20 a21 a22 (row t p) q hb).symm
  · -- columns 3584 … 4095
    obtain ⟨p, j, rfl⟩ : ∃ (p : Fin 256) (j : Fin 512), x = ix2 p j := ⟨x 0, x 1, eq_ix2 x⟩
    have hb : 3584 + j.val < 6656 := by have := j.isLt; omega
    rw [emb_slab 3584 512 _ p j hb]
    exact ((link_z t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H p j).trans (zEnergy_eq t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H _).symm).trans (gref_zen a0 a1 a2 a3 a4 a5 a6 a7 a8 a9 a10 a11 a12 a13 a14 a15 a16 a17 a18 a19 a20 a21 a22 (row t p) j hb).symm
  · -- columns 0 … 511
    obtain ⟨p, j, rfl⟩ : ∃ (p : Fin 256) (j : Fin 512), x = ix2 p j := ⟨x 0, x 1, eq_ix2 x⟩
    have hb : 0 + j.val < 6656 := by have := j.isLt; omega
    rw [emb_slab 0 512 _ p j hb]
    exact (link_z t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H p j).trans (gref_z a0 a1 a2 a3 a4 a5 a6 a7 a8 a9 a10 a11 a12 a13 a14 a15 a16 a17 a18 a19 a20 a21 a22 (row t p) j hb).symm
  · -- columns 2560 … 3071
    obtain ⟨p, j, rfl⟩ : ∃ (p : Fin 256) (j : Fin 512), x = ix2 p j := ⟨x 0, x 1, eq_ix2 x⟩
    have hb : 2560 + j.val < 6656 := by have := j.isLt; omega
    rw [emb_slab 2560 512 _ p j hb]
    exact (link_sst t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H p j).trans (gref_sst a0 a1 a2 a3 a4 a5 a6 a7 a8 a9 a10 a11 a12 a13 a14 a15 a16 a17 a18 a19 a20 a21 a22 (row t p) j hb).symm
  · -- columns 2048 … 2559
    obtain ⟨p, j, rfl⟩ : ∃ (p : Fin 256) (j : Fin 512), x = ix2 p j := ⟨x 0, x 1, eq_ix2 x⟩
    have hb : 2048 + j.val < 6656 := by have := j.isLt; omega
    rw [emb_slab 2048 512 _ p j hb]
    exact (link_theta t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H p j).trans (gref_theta a0 a1 a2 a3 a4 a5 a6 a7 a8 a9 a10 a11 a12 a13 a14 a15 a16 a17 a18 a19 a20 a21 a22 (row t p) j hb).symm
  · -- columns 3072 … 3583
    obtain ⟨p, j, rfl⟩ : ∃ (p : Fin 256) (j : Fin 512), x = ix2 p j := ⟨x 0, x 1, eq_ix2 x⟩
    have hb : 3072 + j.val < 6656 := by have := j.isLt; omega
    rw [emb_slab 3072 512 _ p j hb]
    exact (link_thff t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H p j).trans (gref_thff a0 a1 a2 a3 a4 a5 a6 a7 a8 a9 a10 a11 a12 a13 a14 a15 a16 a17 a18 a19 a20 a21 a22 (row t p) j hb).symm
  · -- columns 1536 … 2047
    obtain ⟨p, j, rfl⟩ : ∃ (p : Fin 256) (j : Fin 512), x = ix2 p j := ⟨x 0, x 1, eq_ix2 x⟩
    have hb : 1536 + j.val < 6656 := by have := j.isLt; omega
    rw [emb_slab 1536 512 _ p j hb]
    exact (link_sigP t x0 x1 x2 x3 x4 x5 x6 x7 x8 x9 x10 x11 x12 x13 x14 x15 x16 x17 x18 x19 x20 x21 x22 a0 a1 a2 a3 a4 a5 a6 a7 a8 a9 a10 a11 a12 a13 a14 a15 a16 a17 a18 a19 a20 a21 a22 H p j).trans (gref_sigP a0 a1 a2 a3 a4 a5 a6 a7 a8 a9 a10 a11 a12 a13 a14 a15 a16 a17 a18 a19 a20 a21 a22 (row t p) j hb).symm

end Cert.Bridge

end
-- ==== Proof.Windows.lean ====
/-
  The kernel's operands at a grid point, against the argument arrays.

  The pallas_call has 23 operands. Nine are row-indexed arrays cut into blocks of 256 rows: at grid point t the block is
  rows 256·t … 256·t + 255 of the array, so its entry (p, k) is the array's entry (256·t + p, k). The other fourteen are
  whole arrays, the same at every grid point, which the program computes from the weights before the call: each weight
  transposed (the reference multiplies by the same transposes), the two gating weights rectified first, the recurrent
  weight first rescaled by min(1, 0.5 / its norm), and the bias rectified and laid out as one row. Their rounding to the
  matrix unit's format changes nothing at the exact extended reals. Together these are the agreement the row links
  (Proof/RowLinks.lean) start from.
-/
import proofs.«151506_j27513560498312_2_alg».proof.Proof.Gen.KernelIdeal.Frame.Runs
import proofs.«151506_j27513560498312_2_alg».proof.Proof.RowLinks
import Idealize.ShloMosaic.Lib.StableHlo.Run
import Idealize.ShloMosaic.Lib.ValueLayout

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read

variable (m : (ℓ : Loc nD τ sig) → Buf (Elt Ideal) ℓ)

/-- The block number of a grid point (the grid has one axis of 32 points). -/
def blockNo (t : Fin cfg0.N) : Fin 32 := ⟨t.val, lt_of_lt_of_eq t.isLt N_0⟩

/-! ## The windows' block indices, decided over the 32 grid points -/

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)
theorem idx_5 : ∀ t : Fin cfg0.N, win0_5.index t (0 : Fin 2) = t.val ∧ win0_5.index t (1 : Fin 2) = 0 :=
  (by decide +kernel : ∀ t : Fin grid0.N, _)
theorem idx_6 : ∀ t : Fin cfg0.N, win0_6.index t (0 : Fin 2) = t.val ∧ win0_6.index t (1 : Fin 2) = 0 :=
  (by decide +kernel : ∀ t : Fin grid0.N, _)
theorem idx_7 : ∀ t : Fin cfg0.N, win0_7.index t (0 : Fin 2) = t.val ∧ win0_7.index t (1 : Fin 2) = 0 :=
  (by decide +kernel : ∀ t : Fin grid0.N, _)
theorem idx_8 : ∀ t : Fin cfg0.N, win0_8.index t (0 : Fin 2) = t.val ∧ win0_8.index t (1 : Fin 2) = 0 :=
  (by decide +kernel : ∀ t : Fin grid0.N, _)
theorem idx_23 : ∀ t : Fin cfg0.N, win0_23.index t (0 : Fin 2) = t.val ∧ win0_23.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)
theorem idx_16 : ∀ t : Fin cfg0.N, win0_16.index t (0 : Fin 2) = 0 ∧ win0_16.index t (1 : Fin 2) = 0 :=
  (by decide +kernel : ∀ t : Fin grid0.N, _)
theorem idx_17 : ∀ t : Fin cfg0.N, win0_17.index t (0 : Fin 2) = 0 ∧ win0_17.index t (1 : Fin 2) = 0 :=
  (by decide +kernel : ∀ t : Fin grid0.N, _)
theorem idx_18 : ∀ t : Fin cfg0.N, win0_18.index t (0 : Fin 2) = 0 ∧ win0_18.index t (1 : Fin 2) = 0 :=
  (by decide +kernel : ∀ t : Fin grid0.N, _)
theorem idx_19 : ∀ t : Fin cfg0.N, win0_19.index t (0 : Fin 2) = 0 ∧ win0_19.index t (1 : Fin 2) = 0 :=
  (by decide +kernel : ∀ t : Fin grid0.N, _)
theorem idx_20 : ∀ t : Fin cfg0.N, win0_20.index t (0 : Fin 2) = 0 ∧ win0_20.index t (1 : Fin 2) = 0 :=
  (by decide +kernel : ∀ t : Fin grid0.N, _)
theorem idx_21 : ∀ t : Fin cfg0.N, win0_21.index t (0 : Fin 2) = 0 ∧ win0_21.index t (1 : Fin 2) = 0 :=
  (by decide +kernel : ∀ t : Fin grid0.N, _)
theorem idx_22 : ∀ t : Fin cfg0.N, win0_22.index t (0 : Fin 2) = 0 ∧ win0_22.index t (1 : Fin 2) = 0 :=
  (by decide +kernel : ∀ t : Fin grid0.N, _)

/-! ## The row operands: block t is rows 256·t … 256·t + 255 -/

theorem rows_0 (c : Dev nD) (t : Fin cfg0.N) (p : Fin 256) (k : Fin 1024) :
    iblk m c 0 t (ix2 p k) = (m ((c : Thread nD τ).loc main_arg0)) (ix2 (row (blockNo t) p) k) := by
  refine Eq.trans ?_ (congrFun (V_main_arg0 m c) _)
  show V m c main_arg0 (((cfg0.win 0).blk t).view.emb (ix2 p k)) = V m c main_arg0 (ix2 (row (blockNo t) p) k)
  refine congrArg (V m c main_arg0) ?_
  funext a; apply Fin.ext
  match a with
  | ⟨0, _⟩ =>
    show win0_0.index t (0 : Fin 2) * 256 + 1 * p.val = 256 * t.val + p.val
    rw [(idx_0 t).1]; omega
  | ⟨1, _⟩ =>
    show win0_0.index t (1 : Fin 2) * 1024 + 1 * k.val = k.val
    rw [(idx_0 t).2]; omega

theorem rows_1 (c : Dev nD) (t : Fin cfg0.N) (p : Fin 256) (k : Fin 512) :
    iblk m c 1 t (ix2 p k) = (m ((c : Thread nD τ).loc main_arg1)) (ix2 (row (blockNo t) p) k) := by
  refine Eq.trans ?_ (congrFun (V_main_arg1 m c) _)
  show V m c main_arg1 (((cfg0.win 1).blk t).view.emb (ix2 p k)) = V m c main_arg1 (ix2 (row (blockNo t) p) k)
  refine congrArg (V m c main_arg1) ?_
  funext a; apply Fin.ext
  match a with
  | ⟨0, _⟩ =>
    show win0_1.index t (0 : Fin 2) * 256 + 1 * p.val = 256 * t.val + p.val
    rw [(idx_1 t).1]; omega
  | ⟨1, _⟩ =>
    show win0_1.index t (1 : Fin 2) * 512 + 1 * k.val = k.val
    rw [(idx_1 t).2]; omega

theorem rows_2 (c : Dev nD) (t : Fin cfg0.N) (p : Fin 256) (k : Fin 512) :
    iblk m c 2 t (ix2 p k) = (m ((c : Thread nD τ).loc main_arg2)) (ix2 (row (blockNo t) p) k) := by
  refine Eq.trans ?_ (congrFun (V_main_arg2 m c) _)
  show V m c main_arg2 (((cfg0.win 2).blk t).view.emb (ix2 p k)) = V m c main_arg2 (ix2 (row (blockNo t) p) k)
  refine congrArg (V m c main_arg2) ?_
  funext a; apply Fin.ext
  match a with
  | ⟨0, _⟩ =>
    show win0_2.index t (0 : Fin 2) * 256 + 1 * p.val = 256 * t.val + p.val
    rw [(idx_2 t).1]; omega
  | ⟨1, _⟩ =>
    show win0_2.index t (1 : Fin 2) * 512 + 1 * k.val = k.val
    rw [(idx_2 t).2]; omega

theorem rows_3 (c : Dev nD) (t : Fin cfg0.N) (p : Fin 256) (k : Fin 512) :
    iblk m c 3 t (ix2 p k) = (m ((c : Thread nD τ).loc main_arg3)) (ix2 (row (blockNo t) p) k) := by
  refine Eq.trans ?_ (congrFun (V_main_arg3 m c) _)
  show V m c main_arg3 (((cfg0.win 3).blk t).view.emb (ix2 p k)) = V m c main_arg3 (ix2 (row (blockNo t) p) k)
  refine congrArg (V m c main_arg3) ?_
  funext a; apply Fin.ext
  match a with
  | ⟨0, _⟩ =>
    show win0_3.index t (0 : Fin 2) * 256 + 1 * p.val = 256 * t.val + p.val
    rw [(idx_3 t).1]; omega
  | ⟨1, _⟩ =>
    show win0_3.index t (1 : Fin 2) * 512 + 1 * k.val = k.val
    rw [(idx_3 t).2]; omega

theorem rows_4 (c : Dev nD) (t : Fin cfg0.N) (p : Fin 256) (k : Fin 512) :
    iblk m c 4 t (ix2 p k) = (m ((c : Thread nD τ).loc main_arg4)) (ix2 (row (blockNo t) p) k) := by
  refine Eq.trans ?_ (congrFun (V_main_arg4 m c) _)
  show V m c main_arg4 (((cfg0.win 4).blk t).view.emb (ix2 p k)) = V m c main_arg4 (ix2 (row (blockNo t) p) k)
  refine congrArg (V m c main_arg4) ?_
  funext a; apply Fin.ext
  match a with
  | ⟨0, _⟩ =>
    show win0_4.index t (0 : Fin 2) * 256 + 1 * p.val = 256 * t.val + p.val
    rw [(idx_4 t).1]; omega
  | ⟨1, _⟩ =>
    show win0_4.index t (1 : Fin 2) * 512 + 1 * k.val = k.val
    rw [(idx_4 t).2]; omega

theorem rows_5 (c : Dev nD) (t : Fin cfg0.N) (p : Fin 256) (k : Fin 512) :
    iblk m c 5 t (ix2 p k) = (m ((c : Thread nD τ).loc main_arg5)) (ix2 (row (blockNo t) p) k) := by
  refine Eq.trans ?_ (congrFun (V_main_arg5 m c) _)
  show V m c main_arg5 (((cfg0.win 5).blk t).view.emb (ix2 p k)) = V m c main_arg5 (ix2 (row (blockNo t) p) k)
  refine congrArg (V m c main_arg5) ?_
  funext a; apply Fin.ext
  match a with
  | ⟨0, _⟩ =>
    show win0_5.index t (0 : Fin 2) * 256 + 1 * p.val = 256 * t.val + p.val
    rw [(idx_5 t).1]; omega
  | ⟨1, _⟩ =>
    show win0_5.index t (1 : Fin 2) * 512 + 1 * k.val = k.val
    rw [(idx_5 t).2]; omega

theorem rows_6 (c : Dev nD) (t : Fin cfg0.N) (p : Fin 256) (k : Fin 512) :
    iblk m c 6 t (ix2 p k) = (m ((c : Thread nD τ).loc main_arg6)) (ix2 (row (blockNo t) p) k) := by
  refine Eq.trans ?_ (congrFun (V_main_arg6 m c) _)
  show V m c main_arg6 (((cfg0.win 6).blk t).view.emb (ix2 p k)) = V m c main_arg6 (ix2 (row (blockNo t) p) k)
  refine congrArg (V m c main_arg6) ?_
  funext a; apply Fin.ext
  match a with
  | ⟨0, _⟩ =>
    show win0_6.index t (0 : Fin 2) * 256 + 1 * p.val = 256 * t.val + p.val
    rw [(idx_6 t).1]; omega
  | ⟨1, _⟩ =>
    show win0_6.index t (1 : Fin 2) * 512 + 1 * k.val = k.val
    rw [(idx_6 t).2]; omega

theorem rows_7 (c : Dev nD) (t : Fin cfg0.N) (p : Fin 256) (k : Fin 512) :
    iblk m c 7 t (ix2 p k) = (m ((c : Thread nD τ).loc main_arg7)) (ix2 (row (blockNo t) p) k) := by
  refine Eq.trans ?_ (congrFun (V_main_arg7 m c) _)
  show V m c main_arg7 (((cfg0.win 7).blk t).view.emb (ix2 p k)) = V m c main_arg7 (ix2 (row (blockNo t) p) k)
  refine congrArg (V m c main_arg7) ?_
  funext a; apply Fin.ext
  match a with
  | ⟨0, _⟩ =>
    show win0_7.index t (0 : Fin 2) * 256 + 1 * p.val = 256 * t.val + p.val
    rw [(idx_7 t).1]; omega
  | ⟨1, _⟩ =>
    show win0_7.index t (1 : Fin 2) * 512 + 1 * k.val = k.val
    rw [(idx_7 t).2]; omega

theorem rows_8 (c : Dev nD) (t : Fin cfg0.N) (p : Fin 256) (k : Fin 512) :
    iblk m c 8 t (ix2 p k) = (m ((c : Thread nD τ).loc main_arg8)) (ix2 (row (blockNo t) p) k) := by
  refine Eq.trans ?_ (congrFun (V_main_arg8 m c) _)
  show V m c main_arg8 (((cfg0.win 8).blk t).view.emb (ix2 p k)) = V m c main_arg8 (ix2 (row (blockNo t) p) k)
  refine congrArg (V m c main_arg8) ?_
  funext a; apply Fin.ext
  match a with
  | ⟨0, _⟩ =>
    show win0_8.index t (0 : Fin 2) * 256 + 1 * p.val = 256 * t.val + p.val
    rw [(idx_8 t).1]; omega
  | ⟨1, _⟩ =>
    show win0_8.index t (1 : Fin 2) * 512 + 1 * k.val = k.val
    rw [(idx_8 t).2]; omega

/-! ## The weight operands: the whole array, as the program forms it before the call -/

theorem whole_9 (c : Dev nD) (t : Fin cfg0.N) (i : S1024x512.Idx) : iblk m c 9 t i = V m c main_v9 i := by
  show V m c main_v9 (((cfg0.win 9).blk t).view.emb i) = V m c main_v9 i
  refine congrArg (V m c main_v9) ?_
  funext a; apply Fin.ext
  match a with
  | ⟨0, _⟩ =>
    show win0_9.index t (0 : Fin 2) * 1024 + 1 * (i 0).val = (i 0).val
    rw [(idx_9 t).1]; omega
  | ⟨1, _⟩ =>
    show win0_9.index t (1 : Fin 2) * 512 + 1 * (i 1).val = (i 1).val
    rw [(idx_9 t).2]; omega

theorem V_w9 (c : Dev nD) : (V m c main_v9 : S1024x512.Idx → EReal)
    = truncf (F := Ideal) .bf16 (val_main_v42 (F := Ideal) ((m ((c : Thread nD τ).loc main_arg9)) : S512x1024.Idx → EReal)) bitsLt_bf16_f32 := by
  unfold val_main_v42
  dsimp only [V]
  simp only [hostOps0, hostOps0_1, hostOps0_2, hostOps0_3, hostOps0_4, List.flatten_cons, List.flatten_nil, List.append_nil, List.cons_append, List.nil_append]
  after_results
  try rfl

theorem weight_9 (c : Dev nD) (t : Fin cfg0.N) (i : S1024x512.Idx) :
    iblk m c 9 t i = val_main_v42 (F := Ideal) (m ((c : Thread nD τ).loc main_arg9)) i := by
  rw [whole_9 m c t i]
  exact congrFun (V_w9 m c) i

theorem whole_10 (c : Dev nD) (t : Fin cfg0.N) (i : S1024x512.Idx) : iblk m c 10 t i = V m c main_v11 i := by
  show V m c main_v11 (((cfg0.win 10).blk t).view.emb i) = V m c main_v11 i
  refine congrArg (V m c main_v11) ?_
  funext a; apply Fin.ext
  match a with
  | ⟨0, _⟩ =>
    show win0_10.index t (0 : Fin 2) * 1024 + 1 * (i 0).val = (i 0).val
    rw [(idx_10 t).1]; omega
  | ⟨1, _⟩ =>
    show win0_10.index t (1 : Fin 2) * 512 + 1 * (i 1).val = (i 1).val
    rw [(idx_10 t).2]; omega

theorem V_w10 (c : Dev nD) : (V m c main_v11 : S1024x512.Idx → EReal)
    = truncf (F := Ideal) .bf16 (val_main_v45 (F := Ideal) ((m ((c : Thread nD τ).loc main_arg10)) : S512x1024.Idx → EReal)) bitsLt_bf16_f32 := by
  unfold val_main_v45
  dsimp only [V]
  simp only [hostOps0, hostOps0_1, hostOps0_2, hostOps0_3, hostOps0_4, List.flatten_cons, List.flatten_nil, List.append_nil, List.cons_append, List.nil_append]
  after_results
  try rfl

theorem weight_10 (c : Dev nD) (t : Fin cfg0.N) (i : S1024x512.Idx) :
    iblk m c 10 t i = val_main_v45 (F := Ideal) (m ((c : Thread nD τ).loc main_arg10)) i := by
  rw [whole_10 m c t i]
  exact congrFun (V_w10 m c) i

theorem whole_11 (c : Dev nD) (t : Fin cfg0.N) (i : S512x512.Idx) : iblk m c 11 t i = V m c main_v13 i := by
  show V m c main_v13 (((cfg0.win 11).blk t).view.emb i) = V m c main_v13 i
  refine congrArg (V m c main_v13) ?_
  funext a; apply Fin.ext
  match a with
  | ⟨0, _⟩ =>
    show win0_11.index t (0 : Fin 2) * 512 + 1 * (i 0).val = (i 0).val
    rw [(idx_11 t).1]; omega
  | ⟨1, _⟩ =>
    show win0_11.index t (1 : Fin 2) * 512 + 1 * (i 1).val = (i 1).val
    rw [(idx_11 t).2]; omega

theorem V_w11 (c : Dev nD) : (V m c main_v13 : S512x512.Idx → EReal)
    = truncf (F := Ideal) .bf16 (val_main_v85 (F := Ideal) ((m ((c : Thread nD τ).loc main_arg11)) : S512x512.Idx → EReal)) bitsLt_bf16_f32 := by
  unfold val_main_v85
  dsimp only [V]
  simp only [hostOps0, hostOps0_1, hostOps0_2, hostOps0_3, hostOps0_4, List.flatten_cons, List.flatten_nil, List.append_nil, List.cons_append, List.nil_append]
  after_results
  try rfl

theorem weight_11 (c : Dev nD) (t : Fin cfg0.N) (i : S512x512.Idx) :
    iblk m c 11 t i = val_main_v85 (F := Ideal) (m ((c : Thread nD τ).loc main_arg11)) i := by
  rw [whole_11 m c t i]
  exact congrFun (V_w11 m c) i

theorem whole_12 (c : Dev nD) (t : Fin cfg0.N) (i : S512x512.Idx) : iblk m c 12 t i = V m c main_v15 i := by
  show V m c main_v15 (((cfg0.win 12).blk t).view.emb i) = V m c main_v15 i
  refine congrArg (V m c main_v15) ?_
  funext a; apply Fin.ext
  match a with
  | ⟨0, _⟩ =>
    show win0_12.index t (0 : Fin 2) * 512 + 1 * (i 0).val = (i 0).val
    rw [(idx_12 t).1]; omega
  | ⟨1, _⟩ =>
    show win0_12.index t (1 : Fin 2) * 512 + 1 * (i 1).val = (i 1).val
    rw [(idx_12 t).2]; omega

theorem V_w12 (c : Dev nD) : (V m c main_v15 : S512x512.Idx → EReal)
    = truncf (F := Ideal) .bf16 (val_main_v87 (F := Ideal) ((m ((c : Thread nD τ).loc main_arg12)) : S512x512.Idx → EReal)) bitsLt_bf16_f32 := by
  unfold val_main_v87 val_main_v7 val_main_v6 val_main_v5 val_main_v4 val_main_v3 val_main_call3_v1 val_main_call3_v0 val_main_call3_cst val_main_cst val_main_cst_0
  dsimp only [V]
  simp only [hostOps0, hostOps0_1, hostOps0_2, hostOps0_3, hostOps0_4, List.flatten_cons, List.flatten_nil, List.append_nil, List.cons_append, List.nil_append]
  after_results
  try rfl

theorem weight_12 (c : Dev nD) (t : Fin cfg0.N) (i : S512x512.Idx) :
    iblk m c 12 t i = val_main_v87 (F := Ideal) (m ((c : Thread nD τ).loc main_arg12)) i := by
  rw [whole_12 m c t i]
  exact congrFun (V_w12 m c) i

theorem whole_13 (c : Dev nD) (t : Fin cfg0.N) (i : S512x512.Idx) : iblk m c 13 t i = V m c main_v17 i := by
  show V m c main_v17 (((cfg0.win 13).blk t).view.emb i) = V m c main_v17 i
  refine congrArg (V m c main_v17) ?_
  funext a; apply Fin.ext
  match a with
  | ⟨0, _⟩ =>
    show win0_13.index t (0 : Fin 2) * 512 + 1 * (i 0).val = (i 0).val
    rw [(idx_13 t).1]; omega
  | ⟨1, _⟩ =>
    show win0_13.index t (1 : Fin 2) * 512 + 1 * (i 1).val = (i 1).val
    rw [(idx_13 t).2]; omega

theorem V_w13 (c : Dev nD) : (V m c main_v17 : S512x512.Idx → EReal)
    = truncf (F := Ideal) .bf16 (val_main_v93 (F := Ideal) ((m ((c : Thread nD τ).loc main_arg13)) : S512x512.Idx → EReal)) bitsLt_bf16_f32 := by
  unfold val_main_v93
  dsimp only [V]
  simp only [hostOps0, hostOps0_1, hostOps0_2, hostOps0_3, hostOps0_4, List.flatten_cons, List.flatten_nil, List.append_nil, List.cons_append, List.nil_append]
  after_results
  try rfl

theorem weight_13 (c : Dev nD) (t : Fin cfg0.N) (i : S512x512.Idx) :
    iblk m c 13 t i = val_main_v93 (F := Ideal) (m ((c : Thread nD τ).loc main_arg13)) i := by
  rw [whole_13 m c t i]
  exact congrFun (V_w13 m c) i

theorem whole_14 (c : Dev nD) (t : Fin cfg0.N) (i : S512x512.Idx) : iblk m c 14 t i = V m c main_v19 i := by
  show V m c main_v19 (((cfg0.win 14).blk t).view.emb i) = V m c main_v19 i
  refine congrArg (V m c main_v19) ?_
  funext a; apply Fin.ext
  match a with
  | ⟨0, _⟩ =>
    show win0_14.index t (0 : Fin 2) * 512 + 1 * (i 0).val = (i 0).val
    rw [(idx_14 t).1]; omega
  | ⟨1, _⟩ =>
    show win0_14.index t (1 : Fin 2) * 512 + 1 * (i 1).val = (i 1).val
    rw [(idx_14 t).2]; omega

theorem V_w14 (c : Dev nD) : (V m c main_v19 : S512x512.Idx → EReal)
    = truncf (F := Ideal) .bf16 (val_main_v91 (F := Ideal) ((m ((c : Thread nD τ).loc main_arg14)) : S512x512.Idx → EReal)) bitsLt_bf16_f32 := by
  unfold val_main_v91
  dsimp only [V]
  simp only [hostOps0, hostOps0_1, hostOps0_2, hostOps0_3, hostOps0_4, List.flatten_cons, List.flatten_nil, List.append_nil, List.cons_append, List.nil_append]
  after_results
  try rfl

theorem weight_14 (c : Dev nD) (t : Fin cfg0.N) (i : S512x512.Idx) :
    iblk m c 14 t i = val_main_v91 (F := Ideal) (m ((c : Thread nD τ).loc main_arg14)) i := by
  rw [whole_14 m c t i]
  exact congrFun (V_w14 m c) i

theorem whole_15 (c : Dev nD) (t : Fin cfg0.N) (i : S512x512.Idx) : iblk m c 15 t i = V m c main_v21 i := by
  show V m c main_v21 (((cfg0.win 15).blk t).view.emb i) = V m c main_v21 i
  refine congrArg (V m c main_v21) ?_
  funext a; apply Fin.ext
  match a with
  | ⟨0, _⟩ =>
    show win0_15.index t (0 : Fin 2) * 512 + 1 * (i 0).val = (i 0).val
    rw [(idx_15 t).1]; omega
  | ⟨1, _⟩ =>
    show win0_15.index t (1 : Fin 2) * 512 + 1 * (i 1).val = (i 1).val
    rw [(idx_15 t).2]; omega

theorem V_w15 (c : Dev nD) : (V m c main_v21 : S512x512.Idx → EReal)
    = truncf (F := Ideal) .bf16 (val_main_v8 (F := Ideal) ((m ((c : Thread nD τ).loc main_arg15)) : S512x512.Idx → EReal)) bitsLt_bf16_f32 := by
  unfold val_main_v8
  dsimp only [V]
  simp only [hostOps0, hostOps0_1, hostOps0_2, hostOps0_3, hostOps0_4, List.flatten_cons, List.flatten_nil, List.append_nil, List.cons_append, List.nil_append]
  after_results
  try rfl

theorem weight_15 (c : Dev nD) (t : Fin cfg0.N) (i : S512x512.Idx) :
    iblk m c 15 t i = val_main_v8 (F := Ideal) (m ((c : Thread nD τ).loc main_arg15)) i := by
  rw [whole_15 m c t i]
  exact congrFun (V_w15 m c) i

theorem whole_16 (c : Dev nD) (t : Fin cfg0.N) (i : S512x512.Idx) : iblk m c 16 t i = V m c main_v23 i := by
  show V m c main_v23 (((cfg0.win 16).blk t).view.emb i) = V m c main_v23 i
  refine congrArg (V m c main_v23) ?_
  funext a; apply Fin.ext
  match a with
  | ⟨0, _⟩ =>
    show win0_16.index t (0 : Fin 2) * 512 + 1 * (i 0).val = (i 0).val
    rw [(idx_16 t).1]; omega
  | ⟨1, _⟩ =>
    show win0_16.index t (1 : Fin 2) * 512 + 1 * (i 1).val = (i 1).val
    rw [(idx_16 t).2]; omega

theorem V_w16 (c : Dev nD) : (V m c main_v23 : S512x512.Idx → EReal)
    = truncf (F := Ideal) .bf16 (val_main_v11 (F := Ideal) ((m ((c : Thread nD τ).loc main_arg16)) : S512x512.Idx → EReal)) bitsLt_bf16_f32 := by
  unfold val_main_v11
  dsimp only [V]
  simp only [hostOps0, hostOps0_1, hostOps0_2, hostOps0_3, hostOps0_4, List.flatten_cons, List.flatten_nil, List.append_nil, List.cons_append, List.nil_append]
  after_results
  try rfl

theorem weight_16 (c : Dev nD) (t : Fin cfg0.N) (i : S512x512.Idx) :
    iblk m c 16 t i = val_main_v11 (F := Ideal) (m ((c : Thread nD τ).loc main_arg16)) i := by
  rw [whole_16 m c t i]
  exact congrFun (V_w16 m c) i

theorem whole_18 (c : Dev nD) (t : Fin cfg0.N) (i : S512x512.Idx) : iblk m c 18 t i = V m c main_v26 i := by
  show V m c main_v26 (((cfg0.win 18).blk t).view.emb i) = V m c main_v26 i
  refine congrArg (V m c main_v26) ?_
  funext a; apply Fin.ext
  match a with
  | ⟨0, _⟩ =>
    show win0_18.index t (0 : Fin 2) * 512 + 1 * (i 0).val = (i 0).val
    rw [(idx_18 t).1]; omega
  | ⟨1, _⟩ =>
    show win0_18.index t (1 : Fin 2) * 512 + 1 * (i 1).val = (i 1).val
    rw [(idx_18 t).2]; omega

theorem V_w18 (c : Dev nD) : (V m c main_v26 : S512x512.Idx → EReal)
    = truncf (F := Ideal) .bf16 (val_main_v22 (F := Ideal) ((m ((c : Thread nD τ).loc main_arg18)) : S512x512.Idx → EReal)) bitsLt_bf16_f32 := by
  unfold val_main_v22 val_main_v0 val_main_call0_v0 val_main_call0_cst
  dsimp only [V]
  simp only [hostOps0, hostOps0_1, hostOps0_2, hostOps0_3, hostOps0_4, List.flatten_cons, List.flatten_nil, List.append_nil, List.cons_append, List.nil_append]
  after_results
  try rfl

theorem weight_18 (c : Dev nD) (t : Fin cfg0.N) (i : S512x512.Idx) :
    iblk m c 18 t i = val_main_v22 (F := Ideal) (m ((c : Thread nD τ).loc main_arg18)) i := by
  rw [whole_18 m c t i]
  exact congrFun (V_w18 m c) i

theorem whole_19 (c : Dev nD) (t : Fin cfg0.N) (i : S512x512.Idx) : iblk m c 19 t i = V m c main_v28 i := by
  show V m c main_v28 (((cfg0.win 19).blk t).view.emb i) = V m c main_v28 i
  refine congrArg (V m c main_v28) ?_
  funext a; apply Fin.ext
  match a with
  | ⟨0, _⟩ =>
    show win0_19.index t (0 : Fin 2) * 512 + 1 * (i 0).val = (i 0).val
    rw [(idx_19 t).1]; omega
  | ⟨1, _⟩ =>
    show win0_19.index t (1 : Fin 2) * 512 + 1 * (i 1).val = (i 1).val
    rw [(idx_19 t).2]; omega

theorem V_w19 (c : Dev nD) : (V m c main_v28 : S512x512.Idx → EReal)
    = truncf (F := Ideal) .bf16 (val_main_v64 (F := Ideal) ((m ((c : Thread nD τ).loc main_arg19)) : S512x512.Idx → EReal)) bitsLt_bf16_f32 := by
  unfold val_main_v64 val_main_v1 val_main_call1_v0 val_main_call1_cst
  dsimp only [V]
  simp only [hostOps0, hostOps0_1, hostOps0_2, hostOps0_3, hostOps0_4, List.flatten_cons, List.flatten_nil, List.append_nil, List.cons_append, List.nil_append]
  after_results
  try rfl

theorem weight_19 (c : Dev nD) (t : Fin cfg0.N) (i : S512x512.Idx) :
    iblk m c 19 t i = val_main_v64 (F := Ideal) (m ((c : Thread nD τ).loc main_arg19)) i := by
  rw [whole_19 m c t i]
  exact congrFun (V_w19 m c) i

theorem whole_20 (c : Dev nD) (t : Fin cfg0.N) (i : S1024x512.Idx) : iblk m c 20 t i = V m c main_v30 i := by
  show V m c main_v30 (((cfg0.win 20).blk t).view.emb i) = V m c main_v30 i
  refine congrArg (V m c main_v30) ?_
  funext a; apply Fin.ext
  match a with
  | ⟨0, _⟩ =>
    show win0_20.index t (0 : Fin 2) * 1024 + 1 * (i 0).val = (i 0).val
    rw [(idx_20 t).1]; omega
  | ⟨1, _⟩ =>
    show win0_20.index t (1 : Fin 2) * 512 + 1 * (i 1).val = (i 1).val
    rw [(idx_20 t).2]; omega

theorem V_w20 (c : Dev nD) : (V m c main_v30 : S1024x512.Idx → EReal)
    = truncf (F := Ideal) .bf16 (val_main_v30 (F := Ideal) ((m ((c : Thread nD τ).loc main_arg20)) : S512x1024.Idx → EReal)) bitsLt_bf16_f32 := by
  unfold val_main_v30
  dsimp only [V]
  simp only [hostOps0, hostOps0_1, hostOps0_2, hostOps0_3, hostOps0_4, List.flatten_cons, List.flatten_nil, List.append_nil, List.cons_append, List.nil_append]
  after_results
  try rfl

theorem weight_20 (c : Dev nD) (t : Fin cfg0.N) (i : S1024x512.Idx) :
    iblk m c 20 t i = val_main_v30 (F := Ideal) (m ((c : Thread nD τ).loc main_arg20)) i := by
  rw [whole_20 m c t i]
  exact congrFun (V_w20 m c) i

theorem whole_21 (c : Dev nD) (t : Fin cfg0.N) (i : S512x256.Idx) : iblk m c 21 t i = V m c main_v32 i := by
  show V m c main_v32 (((cfg0.win 21).blk t).view.emb i) = V m c main_v32 i
  refine congrArg (V m c main_v32) ?_
  funext a; apply Fin.ext
  match a with
  | ⟨0, _⟩ =>
    show win0_21.index t (0 : Fin 2) * 512 + 1 * (i 0).val = (i 0).val
    rw [(idx_21 t).1]; omega
  | ⟨1, _⟩ =>
    show win0_21.index t (1 : Fin 2) * 256 + 1 * (i 1).val = (i 1).val
    rw [(idx_21 t).2]; omega

theorem V_w21 (c : Dev nD) : (V m c main_v32 : S512x256.Idx → EReal)
    = truncf (F := Ideal) .bf16 (val_main_v71 (F := Ideal) ((m ((c : Thread nD τ).loc main_arg21)) : S256x512.Idx → EReal)) bitsLt_bf16_f32 := by
  unfold val_main_v71
  dsimp only [V]
  simp only [hostOps0, hostOps0_1, hostOps0_2, hostOps0_3, hostOps0_4, List.flatten_cons, List.flatten_nil, List.append_nil, List.cons_append, List.nil_append]
  after_results
  try rfl

theorem weight_21 (c : Dev nD) (t : Fin cfg0.N) (i : S512x256.Idx) :
    iblk m c 21 t i = val_main_v71 (F := Ideal) (m ((c : Thread nD τ).loc main_arg21)) i := by
  rw [whole_21 m c t i]
  exact congrFun (V_w21 m c) i

theorem whole_22 (c : Dev nD) (t : Fin cfg0.N) (i : S256x1024.Idx) : iblk m c 22 t i = V m c main_v34 i := by
  show V m c main_v34 (((cfg0.win 22).blk t).view.emb i) = V m c main_v34 i
  refine congrArg (V m c main_v34) ?_
  funext a; apply Fin.ext
  match a with
  | ⟨0, _⟩ =>
    show win0_22.index t (0 : Fin 2) * 256 + 1 * (i 0).val = (i 0).val
    rw [(idx_22 t).1]; omega
  | ⟨1, _⟩ =>
    show win0_22.index t (1 : Fin 2) * 1024 + 1 * (i 1).val = (i 1).val
    rw [(idx_22 t).2]; omega

theorem V_w22 (c : Dev nD) : (V m c main_v34 : S256x1024.Idx → EReal)
    = truncf (F := Ideal) .bf16 (val_main_v73 (F := Ideal) ((m ((c : Thread nD τ).loc main_arg22)) : S1024x256.Idx → EReal)) bitsLt_bf16_f32 := by
  unfold val_main_v73
  dsimp only [V]
  simp only [hostOps0, hostOps0_1, hostOps0_2, hostOps0_3, hostOps0_4, List.flatten_cons, List.flatten_nil, List.append_nil, List.cons_append, List.nil_append]
  after_results
  try rfl

theorem weight_22 (c : Dev nD) (t : Fin cfg0.N) (i : S256x1024.Idx) :
    iblk m c 22 t i = val_main_v73 (F := Ideal) (m ((c : Thread nD τ).loc main_arg22)) i := by
  rw [whole_22 m c t i]
  exact congrFun (V_w22 m c) i

/-! ## The bias operand: the rectified bias as one row -/

theorem whole_17 (c : Dev nD) (t : Fin cfg0.N) (i : S1x512.Idx) : iblk m c 17 t i = V m c main_v24 i := by
  show V m c main_v24 (((cfg0.win 17).blk t).view.emb i) = V m c main_v24 i
  refine congrArg (V m c main_v24) ?_
  funext a; apply Fin.ext
  match a with
  | ⟨0, _⟩ =>
    show win0_17.index t (0 : Fin 2) * 1 + 1 * (i 0).val = (i 0).val
    rw [(idx_17 t).1]; omega
  | ⟨1, _⟩ =>
    show win0_17.index t (1 : Fin 2) * 512 + 1 * (i 1).val = (i 1).val
    rw [(idx_17 t).2]; omega

theorem V_w17 (c : Dev nD) : (V m c main_v24 : S1x512.Idx → EReal)
    = shapeCast S1x512 (val_main_v2 (F := Ideal) ((m ((c : Thread nD τ).loc main_arg17)) : S512.Idx → EReal)) shapeCasts_S512_S1x512 := by
  unfold val_main_v2 val_main_call2_v0 val_main_call2_cst
  dsimp only [V]
  simp only [hostOps0, hostOps0_1, hostOps0_2, hostOps0_3, hostOps0_4, List.flatten_cons, List.flatten_nil, List.append_nil, List.cons_append, List.nil_append]
  after_results
  try rfl

/-- The bias row at column j is the rectified bias at j, which is what the reference broadcasts to every row. -/
theorem bias_17 (c : Dev nD) (t : Fin cfg0.N) (j : Fin 512) (r : Fin 8192) :
    iblk m c 17 t (ix2 (0 : Fin 1) j) = val_main_v14 (F := Ideal) (m ((c : Thread nD τ).loc main_arg17)) (ix2 r j) := by
  rw [whole_17 m c t, congrFun (V_w17 m c) (ix2 (0 : Fin 1) j), shapeCast_a_1a_apply, val_main_v14_apply, val_main_v13_apply]
  refine congrArg _ ?_
  funext a
  match a with
  | ⟨0, _⟩ => rfl

/-! ## The agreement at a grid point -/

theorem agree_at (c : Dev nD) (t : Fin cfg0.N) :
    Agree (blockNo t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) where
  h0 := rows_0 m c t
  h1 := rows_1 m c t
  h2 := rows_2 m c t
  h3 := rows_3 m c t
  h4 := rows_4 m c t
  h5 := rows_5 m c t
  h6 := rows_6 m c t
  h7 := rows_7 m c t
  h8 := rows_8 m c t
  w9 := weight_9 m c t
  w10 := weight_10 m c t
  w11 := weight_11 m c t
  w12 := weight_12 m c t
  w13 := weight_13 m c t
  w14 := weight_14 m c t
  w15 := weight_15 m c t
  w16 := weight_16 m c t
  w18 := weight_18 m c t
  w19 := weight_19 m c t
  w20 := weight_20 m c t
  w21 := weight_21 m c t
  w22 := weight_22 m c t
  w17 := bias_17 m c t

end Cert.Bridge

end
-- ==== Proof.KernelValue.lean ====
/-
  The kernel's output array after its run is the reference's result of the kernel's own arguments.

  At grid point t the pipeline writes the body's output block back to rows 256·t … 256·t + 255 of the output array, all
  6656 columns. The block the body leaves is, entry by entry, block t of the reference's result (Proof/BlockPieces.lean,
  under the agreement of the operands at the point, Proof/Windows.lean); and the 32 blocks cover the array: row r lies in
  the block of point r / 256. So after the last point the array holds the reference's result everywhere.
-/
import proofs.«151506_j27513560498312_2_alg».proof.Proof.KernelIdealValue
import proofs.«151506_j27513560498312_2_alg».proof.Proof.BlockPieces
import proofs.«151506_j27513560498312_2_alg».proof.Proof.Windows
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP
open Cert.ReferenceIdeal.Read

variable (m : (ℓ : Loc nD τ sig) → Buf (Elt Ideal) ℓ) (ρ : Dev nD → PrngReg)

/-- The reference's result array, computed from the kernel's own 23 argument arrays. -/
def result (c : Dev nD) : S8192x6656.Idx → EReal :=
  val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))

/-- Entry y of the output block at point t sits in the array at row 256·t + (its row) and at its own column. -/
theorem emb_out (t : Fin cfg0.N) (y : S256x6656.Idx) :
    ((cfg0.win 23).blk t).view.emb y = ix2 (row (blockNo t) (y 0)) (y 1) := by
  funext a; apply Fin.ext
  match a with
  | ⟨0, _⟩ =>
    show win0_23.index t (0 : Fin 2) * 256 + 1 * (y 0).val = 256 * t.val + (y 0).val
    rw [(idx_23 t).1]; omega
  | ⟨1, _⟩ =>
    show win0_23.index t (1 : Fin 2) * 6656 + 1 * (y 1).val = (y 1).val
    rw [(idx_23 t).2]; omega

/-- What point t writes back is block t of the reference's result. -/
theorem flushed_eq (c : Dev nD) (t : Fin cfg0.N) :
    (dats m 0 c).flushed 23 t = ((cfg0.win 23).blk t).view.read (Elt Ideal) (result m c) := by
  show (cfg0.win 23).cut (grid0.coords t) ((dats m 0 c).after 23 t) = _
  rw [after0_23]
  funext y
  show outsAt0 m c t y = result m c (((cfg0.win 23).blk t).view.emb y)
  rw [emb_out t y]
  unfold outsAt0 out0_A_23
  exact View.read_writes_apply_of_pieces VO0_23 VO0_23.junk (blockOf (blockNo t) (result m c)) _
    (pieces_agree (blockNo t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (agree_at m c t))
    y (cover0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) y)

/-- An index of the array is in point t's block iff each coordinate is in the block's range on its axis. -/
theorem mem_blk (t : Fin cfg0.N) (i : S8192x6656.Idx) :
    i ∈ ((cfg0.win 23).blk t).view.set ↔ ∀ a : Fin 2, win0_23.index t a * S256x6656.size a ≤ (i a).val ∧ (i a).val < win0_23.index t a * S256x6656.size a + S256x6656.size a := by
  show i ∈ ((View.whole main_v35).slice (win0_23.rect t)).set ↔ _
  rw [View.set_slice_whole, Rect.mem_set_unit]
  exact Iff.rfl

/-- Every index of the array is in some point's block: row r in the block of point r / 256. -/
theorem cover (i : S8192x6656.Idx) : ∃ t : Fin cfg0.N, (cfg0.win 23).flush t = true ∧ i ∈ ((cfg0.win 23).blk t).view.set := by
  have hi0 : (i 0).val < 8192 := (i 0).isLt
  have hi1 : (i 1).val < 6656 := (i 1).isLt
  have hN : cfg0.N = 32 := N_0
  have hlt : (i 0).val / 256 < cfg0.N := by rw [hN]; omega
  refine ⟨⟨(i 0).val / 256, hlt⟩, flush0_23 _, ?_⟩
  rw [mem_blk]
  intro a
  match a with
  | ⟨0, _⟩ =>
    show win0_23.index ⟨(i 0).val / 256, hlt⟩ (0 : Fin 2) * 256 ≤ (i 0).val ∧ (i 0).val < win0_23.index ⟨(i 0).val / 256, hlt⟩ (0 : Fin 2) * 256 + 256
    rw [(idx_23 ⟨(i 0).val / 256, hlt⟩).1]
    show (i 0).val / 256 * 256 ≤ (i 0).val ∧ (i 0).val < (i 0).val / 256 * 256 + 256
    omega
  | ⟨1, _⟩ =>
    show win0_23.index ⟨(i 0).val / 256, hlt⟩ (1 : Fin 2) * 6656 ≤ (i 1).val ∧ (i 1).val < win0_23.index ⟨(i 0).val / 256, hlt⟩ (1 : Fin 2) * 6656 + 6656
    rw [(idx_23 ⟨(i 0).val / 256, hlt⟩).2]
    omega

/-- The output array after the run. -/
theorem final (c : Dev nD) : (dats m 0 c).arrAt 23 cfg0.N = result m c :=
  (dats m 0 c).arrAt_eq_of_cover 23 (result m c) (fun t _ => flushed_eq m c t) cover

end Cert.Bridge

end
-- ==== Proof.lean ====
/-
  The certificate of one fused Pallas kernel, the forward step of an energy-constrained predictive-coding cell, against its
  plain reference: the frames of the three programs, the (empty) record of the idealization, and the equality of the two
  idealized programs' results over the exact extended reals.

  The step takes a batch of 8192 rows. From the input I (1024 columns), the two recurrent states h and h2, four carried
  gating quantities and two noise arrays (512 columns each), and fourteen weight arrays, it computes for every row

    the prior mean relu(h2 · Wᵀ) and spread sigma_p = 0.8 · relu(h · Wᵀ + relu(b)) + 0.2 · sigma_p_prev,
    theta_ff = tanh²(0.4 · u + e^(−50|u|) · (I · Wᵀ)) and theta = 0.1 · theta_prev + theta_ff / (1 + sigma_p · relu(W_vip)ᵀ),
    the inhibition 0.8 · s + theta · relu(W)ᵀ and the latent z = relu(relu(tanh(relu(I · Wᵀ) + eps · (logistic(0.01 · relu(I · Wᵀ)) − 0.5))) − inhibition),
    the reconstruction logistic((z · W₁ᵀ) · W₂ᵀ − 2), the squared errors (I − reconstruction)² and (z − (prior mean + eps' · sigma_p))²,
    and the updates relu(z · Wᵀ + h · W_hhᵀ), relu(z · Wᵀ + h2 · Wᵀ), with W_hh the recurrent weight scaled by min(1, 0.5 / ‖W‖),

  and lays the eleven results side by side in one array of 6656 columns. The kernel does this 256 rows at a time, with
  the weights transposed (and rounded to the matrix unit's format, which is the identity here) before the call; the
  reference does it for the whole batch at once.

  The two agree because a row's results depend on that row alone: row p of block t is row 256·t + p of the batch
  (Proof/Windows.lean), every stage of the kernel on a block is the reference's stage on those rows (Proof/RowLinks.lean:
  the matrix products are the same sums in the same order, the kernel's logistic is the reference's 1 / (1 + e^(−x))), the
  eleven stores fill the output block with the reference's eleven slabs (Proof/BlockPieces.lean, Proof/ConcatSlabs.lean),
  and the 32 blocks tile the array (Proof/KernelValue.lean). No step rearranges a sum or moves a factor across one, so the
  precondition that the inputs are finite is not used for the equality.
-/
import proofs.«151506_j27513560498312_2_alg».proof.Defs
import proofs.«151506_j27513560498312_2_alg».proof.Proof.Gen.Kernel
import proofs.«151506_j27513560498312_2_alg».proof.Proof.Gen.KernelIdeal
import proofs.«151506_j27513560498312_2_alg».proof.Proof.Gen.ReferenceIdeal
import proofs.«151506_j27513560498312_2_alg».proof.Proof.Gen.Pre_finite_inputs
import proofs.«151506_j27513560498312_2_alg».proof.Proof.Gen.ReferenceIdeal.Run
import proofs.«151506_j27513560498312_2_alg».proof.Proof.Gen.ReferenceIdeal.Read
import proofs.«151506_j27513560498312_2_alg».proof.Proof.KernelFrame
import proofs.«151506_j27513560498312_2_alg».proof.Proof.KernelIdealFrame
import proofs.«151506_j27513560498312_2_alg».proof.Proof.KernelIdealValue
import proofs.«151506_j27513560498312_2_alg».proof.Proof.KernelValue
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing in this kernel, so there is nothing to preserve. -/
theorem preserves : Cert.preserves_Kernel_KernelIdeal := trivial

/-- From memories that agree on the 23 arguments, both idealized programs end with the reference's result of those
    arguments in their result arrays: the kernel's array by the blocks it writes back, the reference's by its run. -/
theorem algebraic : Cert.algebraic_KernelIdeal_ReferenceIdeal := by
  intro m ρ m' ρ' _ hagree
  refine ⟨fun c => Cert.Bridge.result m c, ?_, ?_⟩
  · exact (θ_run Cert.KernelIdeal.defs _ _).mono
      (fun r h c => ⟨(h c).1.trans (Cert.Bridge.final m c), (h c).2⟩)
      (Cert.KernelIdeal.ValueP.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22⟩ := hagree c
    rw [Cert.ReferenceIdeal.Read.val_main_v101_eq, e0, e1, e2, e3, e4, e5, e6, e7, e8, e9, e10, e11, e12, e13, e14, e15, e16, e17, e18, e19, e20, e21, e22]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
